-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S128x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x64 .f32) (main_arg8 : FVec F S64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S1x64 : Shape := ⟨2, ![1, 64]⟩

abbrev nBuf : Space → Nat
  | .hbm => 96
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S100000, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S1x128, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_8 : BitVec 32 := 0#32
  let v19 : BitVec 1 := Scalar.cmpi .ne v18 c0_i32_8
  v19

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  reduces_S10000x128_S128 : S10000x128.Reduces [0] S128
  bcast_S64_S1x64_1 : S64.BroadcastsInDim S1x64 (![1] : Fin 1 → Fin S1x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1x128_S128x64_S1x64_1_0_0_1_n_n_wf : DotDims.WF S1x128 S128x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000, .i32⟩
  | 77 => ⟨S1700000, .i32⟩
  | 78 => ⟨S1700000, .i32⟩
  | 79 => ⟨S_, .f32⟩
  | 80 => ⟨S100000, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x1, .f32⟩
  | 125 => ⟨S1700000x128, .f32⟩
  | 126 => ⟨S1700000x128, .f32⟩
  | 127 => ⟨S_, .f32⟩
  | _ => ⟨S100000x128, .f32⟩

abbrev hbmTy0_1 (i : Nat) : BufTy := match i % 128 with
  | 0 => ⟨S100000x128, .f32⟩
  | 1 => ⟨S1700000x1, .i32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S1x64, .f32⟩
  | 13 => ⟨S1x64, .f32⟩
  | 14 => ⟨S1x64, .f32⟩
  | 15 => ⟨S1x64, .f32⟩
  | 16 => ⟨S1x64, .f32⟩
  | 17 => ⟨S1x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_20 : Ref sig .tc := ⟨.hbm, 134, rfl⟩
abbrev main_v95 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  bcast_S64_S1x64_1 : S64.BroadcastsInDim S1x64 (![1] : Fin 1 → Fin S1x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1x128_S128x64_S1x64_1_0_0_1_n_n_wf : DotDims.WF S1x128 S128x64 S1x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

class Facts : Prop extends Facts₀ where

variable [Facts]
-- ==== Proof.K.Reg0.lean ====
/-
  Region 0 of @main: the row-blocked product  h0 = x · W1.  The grid has 10 points; point t stages rows
  10000·t … 10000·t + 9999 of x (window 0), the whole 128×128 weight (window 1, fetched once) and writes
  back the same rows of the product (window 2).  Stated at a parameter V, the buffer contents when the
  region is entered, and at any float instance: each window's block at a point, what the body leaves in the
  output's staging buffer (one whole-block store of the body's matrix product of the two loaded blocks), the
  body's triple, the pipeline's proof data and the body obligation at every point.
-/
import proofs.«104939_j59184649339354_1_alg».proof.Proof.Gen.Kernel.Launch
import proofs.«104939_j59184649339354_1_alg».proof.Proof.Gen.Kernel.Skeleton
import proofs.«104939_j59184649339354_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x: its current staging buffer holds the block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight: fetched at the first point only, its block index never moves, so its staging buffer holds the
    whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-- The output's staging buffer after the body: one store of the whole block, the product of the two loaded blocks. -/
def out0_2 (x0 : Vec F S10000x128 .f32) (x1 : Vec F S128x128 .f32) : Vec F S10000x128 .f32 :=
  View.canon [⟨r0_0, k0_pay1 (View.ld x0 r0_0) (View.ld x1 r0_1)⟩]

/-- The one store covers the block. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The body on whole staging memrefs, the inputs' at contents x0, x1 and the output's at anything, runs to the
    continuation with the inputs as they were and the output at out0_2 x0 x1. -/
theorem sound_kernel0 (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core c: the arrays as the region finds them; after the body at point t each
    input's buffer at its block and the output's at the product of the two blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of @main: the row-blocked  h0b = max(agg0 + b1, 0) · W2.  The grid has 10 points; point t stages
  rows 10000·t … 10000·t + 9999 of agg0 (window 0), the 1×128 bias row (window 1, fetched once), the whole
  128×128 weight (window 2, fetched once) and writes back the same rows of the result (window 3).  Stated at a
  parameter V, the buffer contents when the region is entered, and at any float instance: each window's block
  at a point, what the body leaves in the output's staging buffer (one whole-block store), the body's triple,
  the pipeline's proof data and the body obligation at every point.
-/
import proofs.«104939_j59184649339354_1_alg».proof.Proof.Gen.Kernel.Launch
import proofs.«104939_j59184649339354_1_alg».proof.Proof.Gen.Kernel.Skeleton
import proofs.«104939_j59184649339354_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of agg0: its current staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight: fetched once, its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0

/-- The output's staging buffer after the body: one store of the whole block, the body's value of the three
    loaded blocks (bias row, activation rows, weight — the order the body loads them in). -/
def out1_3 (x0 : Vec F S10000x128 .f32) (x1 : Vec F S1x128 .f32) (x2 : Vec F S128x128 .f32) : Vec F S10000x128 .f32 :=
  View.canon [⟨r1_0, k1_pay1 (View.ld x1 r1_1) (View.ld x0 r1_0) (View.ld x2 r1_2)⟩]

/-- The one store covers the block. -/
theorem cover1_3 (p0 : Vec F S10000x128 .f32) (y : S10000x128.Idx) :
    ∃ pc ∈ ([⟨r1_0, p0⟩] : List (View.Piece (Elt F) S10000x128 .f32)), y ∈ pc.1.set :=
  View.cover_of_tiled [⟨r1_0, p0⟩] S10000x128.size (by rfl) y

/-! ## The body's triple -/

set_option maxHeartbeats 1000000 in
/-- The body on whole staging memrefs, the inputs' at contents x0, x1, x2 and the output's at anything, runs to
    the continuation with the inputs as they were and the output at out1_3 x0 x1 x2. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_mm_kernel i arg1 harg1 arg2 harg2 arg3 harg3 arg4 harg4) K := by
  simp only [cc1__bias_relu_mm_kernel_eq_skeleton]; unfold cc1__bias_relu_mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Pipeline 1's proof data on core c: the arrays as the region finds them; after the body at point t each
    input's buffer at its block and the output's at the body's value of the three blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
/- Region 2 (the column mean of agg + bias over 100000 rows, accumulated over a grid of 10 points in a
   scratch row and stored at the last point): what the three control cases of its body share — the two
   branch conditions in closed form over the grid, where the output window is idle, the staging and scratch
   memrefs, the region invariant with the scratch row named, and the input windows' blocks read off the
   arrays as the region finds them (a parameter `V`). -/
import proofs.«104939_j59184649339354_1_alg».proof.Proof.Gen.Kernel.Launch
import proofs.«104939_j59184649339354_1_alg».proof.Proof.Gen.Kernel.Skeleton
import proofs.«104939_j59184649339354_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
-- membership in a rectangle with a long axis is decided coordinate by coordinate: the structural recursion is
-- as deep as the axis is long
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (zero the scratch row), from the grid coordinate. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-- The condition of the body's second conditional (store the mean), from the grid coordinate. -/
abbrev cond2_1 (i : grid2.Coords) : Prop := k2_cond2 i = 1#1
/-- It holds at the last point only — decided over the grid. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Windows 0 and 1 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
/-- At the first point the output window is idle and not written back: the body stores nothing into it. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- The same at the middle points. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last point the output window is live: the body stores the mean into it. -/
theorem liveAt2_2_C : ∀ t : Fin cfg2.N, ¬cond2_0 (grid2.coords t) → cond2_1 (grid2.coords t) → cfg2.idle 2 (grid2.coords t) = false := by decide +kernel

/-! ## The staging and scratch memrefs -/

/-- The staging buffer of output window 2, through which its contents are stated. -/
abbrev VO2_2 : View sig .tc .vmem S1x128 .f32 := (Memref.whole cc2_stg2_0 : Memref sig .tc .vmem S1x128 .f32).view
/-- Each window's current staging memref at point `t`, spelled as the pipeline passes it, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
/-- The scratch row: a whole scoped buffer of the kernel's own, passed beside the windows. -/
abbrev scM2_0 : Memref sig .tc .vmem S1x128 .f32 := Memref.whole cc2_scratch0
/-- The scratch row as a view: what it holds is stated through it. -/
abbrev VS2_0 : View sig .tc .vmem S1x128 .f32 := scM2_0.view

/-- The core's scoped buffers other than this region's staging buffers and its scratch row, each at some contents:
    carried through the region unopened. -/
abbrev Rest2 (c : Dev nD) : sProp 𝕄 :=
  Pipeline.scopedRestBut (Ix := Unit) (Name := ℕ) (U := UR sig nD τ) (Lvl := ℕ) (Val := Elt F) spec2 c [cc2_scratch0]

/-- The region's class invariant with the scratch row as a memref owned at some contents and the other scoped
    buffers unopened. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA; rw [Pipeline.scopedRest_split_of_list spec2 c [cc2_scratch0] (by decide) (by decide)]
  simp only [scM2_0, owns_whole]; try rfl

/-! ## The input windows' blocks -/

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (the bias row, fetched at the first point only: its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Cert.Kernel.Hand

end
-- ==== Proof.K.Reg2Run.lean ====
/- Region 2, the body's run in each of its three control cases: at the first grid point (the scratch row is zeroed,
   then the column sums of block + bias row are added to it), at a middle point (the sums are added to the scratch
   row as the point before left it), and at the last point (the same, and the scratch row times the reciprocal of the
   row count is stored into the output window). -/
import proofs.«104939_j59184649339354_1_alg».proof.Proof.K.Reg2Runs
-- membership in a rectangle with a long axis is decided coordinate by coordinate: the structural recursion is
-- as deep as the axis is long
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch row, as pieces (last first), AT THE
    FIRST POINT (first conditional taken, second not), with the proof that on whole staging memrefs — the inputs' at
    their contents, the output's at contents handed back untouched, the scratch row at anything — the body runs to the
    continuation holding the inputs' as they were and the scratch row with its pieces written. The pieces are the
    witness the run finds. -/
noncomputable def kernelRun2_A (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S10000x128 .f32) (x1 : Vec F S1x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__bias_mean_kernel i arg1 harg1 arg2 harg2 arg3 harg3 arg4 harg4) K } := by
  refine ⟨[], ?_, fun xi2 E K => ?run⟩
  case run =>
    simp only [cc2__bias_mean_kernel_eq_skeleton]; unfold cc2__bias_mean_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue walks it past the default budget)
set_option maxHeartbeats 1000000 in
/-- What the body's stores leave in the output's staging memref and in the scratch row, as pieces (last first), AT A
    MIDDLE POINT (neither conditional taken), with the proof that on whole staging memrefs — the inputs' at their
    contents, the output's at contents handed back untouched, the scratch row at what the point before left — the body
    runs to the continuation holding the inputs' as they were and the scratch row with its pieces written. -/
noncomputable def kernelRun2_B (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S10000x128 .f32) (x1 : Vec F S1x128 .f32) (xs0 : Vec F S1x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__bias_mean_kernel i arg1 harg1 arg2 harg2 arg3 harg3 arg4 harg4) K } := by
  refine ⟨[], ?_, fun xi2 E K => ?run⟩
  case run =>
    simp only [cc2__bias_mean_kernel_eq_skeleton]; unfold cc2__bias_mean_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue walks it past the default budget)
set_option maxHeartbeats 1000000 in
/-- What the body's stores leave in the output's staging memref and in the scratch row, as pieces (last first), AT THE
    LAST POINT (first conditional not taken, second taken), with the proof that on whole staging memrefs — the inputs'
    at their contents, the output's at anything, the scratch row at what the point before left — the body runs to the
    continuation holding the inputs' as they were and the output's buffer and the scratch row with their pieces written. -/
noncomputable def kernelRun2_C (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__bias_mean_kernel i arg1 harg1 arg2 harg2 arg3 harg3 arg4 harg4) K } := by
  refine ⟨?_, ?_, fun E K => ?run⟩
  case run =>
    simp only [cc2__bias_mean_kernel_eq_skeleton]; unfold cc2__bias_mean_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.Reg2.lean ====
/- Region 2 (the column mean of agg + bias over 100000 rows): what the output window and the scratch row hold
   case by case and point by point, the region's proof data at the entry contents `V`, the body obligation, and how
   the region invariant is entered and left. -/
import proofs.«104939_j59184649339354_1_alg».proof.Proof.K.Reg2Run
-- membership in a rectangle with a long axis is decided coordinate by coordinate: the structural recursion is
-- as deep as the axis is long
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first point the body stores nothing into the output window (idle there and not written back): no pieces — a
    placeholder (junk read back) that nothing consults. -/
def out2_A_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S10000x128 .f32) (x1 : Vec F S1x128 .f32) : Vec F S1x128 .f32 :=
  VO2_2.read (Elt F) (VO2_2.writes (Elt F) VO2_2.junk (kernelRun2_A c i arg1 harg1 arg2 harg2 arg3 harg3 arg4 harg4 hc0 hc1 x0 x1).1)

/-- The pieces this case stores into the scratch row tile it, so they cover it. -/
theorem scover2_A_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S10000x128 .f32) (x1 : Vec F S1x128 .f32) (y : S1x128.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x128.size (by sl_kernel_rfl) y

/-- What this case leaves in the scratch row: its pieces read back over junk. -/
def sout2_A_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S10000x128 .f32) (x1 : Vec F S1x128 .f32) : Vec F S1x128 .f32 :=
  VS2_0.read (Elt F) (VS2_0.writes (Elt F) VS2_0.junk (kernelRun2_A c i arg1 harg1 arg2 harg2 arg3 harg3 arg4 harg4 hc0 hc1 x0 x1).2.1)

/-- At a middle point the body stores nothing into the output window (idle there and not written back): no pieces — a
    placeholder (junk read back) that nothing consults. -/
def out2_B_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S10000x128 .f32) (x1 : Vec F S1x128 .f32) (xs0 : Vec F S1x128 .f32) : Vec F S1x128 .f32 :=
  VO2_2.read (Elt F) (VO2_2.writes (Elt F) VO2_2.junk (kernelRun2_B c i arg1 harg1 arg2 harg2 arg3 harg3 arg4 harg4 hc0 hc1 x0 x1 xs0).1)

/-- The pieces this case stores into the scratch row tile it, so they cover it. -/
theorem scover2_B_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S10000x128 .f32) (x1 : Vec F S1x128 .f32) (xs0 : Vec F S1x128 .f32) (y : S1x128.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S1x128.size (by sl_kernel_rfl) y

/-- What this case leaves in the scratch row: its pieces read back over junk. -/
def sout2_B_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S10000x128 .f32) (x1 : Vec F S1x128 .f32) (xs0 : Vec F S1x128 .f32) : Vec F S1x128 .f32 :=
  VS2_0.read (Elt F) (VS2_0.writes (Elt F) VS2_0.junk (kernelRun2_B c i arg1 harg1 arg2 harg2 arg3 harg3 arg4 harg4 hc0 hc1 x0 x1 xs0).2.1)

/-- At the last point the body's pieces for the output window tile its block (one store of the whole row), so they cover it. -/
theorem cover2_C_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) (y : S1x128.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x128.size (by sl_kernel_rfl) y

/-- What the last point leaves in the output window's staging buffer: its pieces read back over junk. -/
def out2_C_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) : Vec F S1x128 .f32 :=
  VO2_2.read (Elt F) (VO2_2.writes (Elt F) VO2_2.junk (kernelRun2_C c i arg1 harg1 arg2 harg2 arg3 harg3 arg4 harg4 hc0 hc1 x0 x1 xs0).1)

/-- The pieces this case stores into the scratch row tile it, so they cover it. -/
theorem scover2_C_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) (y : S1x128.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x128.size (by sl_kernel_rfl) y

/-- What this case leaves in the scratch row: its pieces read back over junk. -/
def sout2_C_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) : Vec F S1x128 .f32 :=
  VS2_0.read (Elt F) (VS2_0.writes (Elt F) VS2_0.junk (kernelRun2_C c i arg1 harg1 arg2 harg2 arg3 harg3 arg4 harg4 hc0 hc1 x0 x1 xs0).2.1)

/-! ## What the output window and the scratch row hold after each point -/

/-- THE ACCUMULATION. What the output window's staging buffer and the scratch row hold after the body at position `n`
    (a pair: the output, then the scratch row): the case the closed forms select at `n`, run at the point's memrefs and
    input blocks, the scratch row taken at what this leaves at `n - 1`. An assignment of the conditions no point meets
    is no case. -/
def outsAt2 (c : Dev nD) : (n : ℕ) → n < cfg2.N → Vec F S1x128 .f32 × Vec F S1x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 10 = 0 then
      if h1 : (n + 1) % 10 = 9 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 10 = 9 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at the first point: that case's contents. -/
theorem outsAt2_A (c : Dev nD) (t : Fin cfg2.N) (h0 : t.val % 10 = 0) (h1 : ¬t.val % 10 = 9) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a middle point: that case's contents, over what the point before left. -/
theorem outsAt2_B (c : Dev nD) (t : Fin cfg2.N) (h0 : ¬t.val % 10 = 0) (h1 : ¬t.val % 10 = 9) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: that case's contents, over what the point before left. -/
theorem outsAt2_C (c : Dev nD) (t : Fin cfg2.N) (h0 : ¬t.val % 10 = 0) (h1 : t.val % 10 = 9) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch row at anything);
    afterwards the scratch row at what the point before left in it (`outsAt2`'s second component), the other scoped
    buffers unopened, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch row at that point's contents. -/
theorem PhiS2_succ (c : Dev nD) (n : ℕ) (hn : n < cfg2.N) :
    PhiS2 V c (n + 1) hn = iprop(iprop(owns (c : Thread nD τ) scM2_0 fullShare ((outsAt2 V c n hn).2) ∗ Rest2 (F := F) c) ∗ (∃ r, prngReg c r)) := rfl

/-- Before a point that is not the first: the scratch row at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the scratch row at what the point before left (at anything at the first point) and takes it
    back at this point's contents; the other scoped buffers and the generator register pass through; nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val % 10 = 0
  · by_cases h1 : t.val % 10 = 9
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      have hz : t.val = 0 := by omega
      rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 10 = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch row's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Cert.Kernel.Hand

end
-- ==== Proof.K.Run.lean ====
/-
  The run of @main as nine segments: three host stretches, region 0 (h0 = x·W1), a host stretch (the first
  gather / scale / scatter-add), region 1 (h0b = max(agg0 + b1, 0)·W2), a host stretch (the second
  aggregation), region 2 (the mean over the rows of agg1 + b2) and the last host stretch (the two linear
  heads).  The buffer contents at each segment boundary are a fold from the launch memory: a host stretch
  applies its operations, a region puts its output array at what its write-backs leave and keeps every other
  buffer.  From the three regions' proof data and body obligations: every weakly fair execution terminates,
  nothing faults, and every unscoped buffer ends at the last boundary's contents — which gives the frame
  (each argument read back through the fold to the launch memory) and names the two results.
-/
import proofs.«104939_j59184649339354_1_alg».proof.Proof.K.Reg0
import proofs.«104939_j59184649339354_1_alg».proof.Proof.K.Reg1
import proofs.«104939_j59184649339354_1_alg».proof.Proof.K.Reg2
import proofs.«104939_j59184649339354_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its arrays at what the pipeline leaves (the inputs as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the host stretch `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-! ## The arguments end as launched: no host operation writes one, and a region reads one through an input
    window or not at all -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := (W4_arr m ρ c 1).trans (((dat0 (V3 m ρ) c).arrAt_in 1 rfl _).trans (A_eq0 (V3 m ρ) c 1))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := (W6_arr m ρ c 2).trans (((dat1 (V5 m ρ) c).arrAt_in 2 rfl _).trans (A_eq1 (V5 m ρ) c 2))
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_writes_sub hostOps3 _ hostOps3_writes (by decide)
    _ = W7 m ρ c (Proc.devRef .tc main_arg10) := W8_of_ne m ρ c main_arg10 (by decide)
    _ = W6 m ρ c (Proc.devRef .tc main_arg10) := StableHlo.after_of_writes_sub hostOps2 _ hostOps2_writes (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## The regions as segments -/

/-- Region 2's invariant before its first point, from the generator register and the scoped buffers no window
    stages (a table-free pipeline's prefetch resource is dropped). -/
theorem phiA_of2 (c : Dev nD) (P : sProp 𝕄) :
    iprop((∃ r, prngReg c r) ∗ P ∗ Pipeline.scopedRest spec2 c) ⊢ (Pipeline.ΦA spec2 c : sProp 𝕄) := by
  unfold Pipeline.ΦA
  iintro ⟨Hp, -, Hr⟩
  isplitl [Hr]; · iexact Hr
  iexact Hp
/-- and what it gives back after the last point. -/
theorem of_phiA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at W3, left at W4. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are
    split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of2 c _).trans (hin2 (V7 m ρ) c)
  hout c := by
    rw [Pipeline.ownSems0_none]
    exact (hout2 (V7 m ρ) c).trans (of_phiA2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩) (run_all m ρ)

end Cert.Kernel.Hand

end
-- ==== Proof.KI.Reg0.lean ====
/-
  Region 0 of @main: the row-blocked product  h0 = x · W1.  The grid has 10 points; point t stages rows
  10000·t … 10000·t + 9999 of x (window 0), the whole 128×128 weight (window 1, fetched once) and writes
  back the same rows of the product (window 2).  Stated at a parameter V, the buffer contents when the
  region is entered, and at any float instance: each window's block at a point, what the body leaves in the
  output's staging buffer (one whole-block store of the body's matrix product of the two loaded blocks), the
  body's triple, the pipeline's proof data and the body obligation at every point.
-/
import proofs.«104939_j59184649339354_1_alg».proof.Proof.Gen.KernelIdeal.Launch
import proofs.«104939_j59184649339354_1_alg».proof.Proof.Gen.KernelIdeal.Skeleton
import proofs.«104939_j59184649339354_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x: its current staging buffer holds the block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight: fetched at the first point only, its block index never moves, so its staging buffer holds the
    whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-- The output's staging buffer after the body: one store of the whole block, the product of the two loaded blocks. -/
def out0_2 (x0 : Vec F S10000x128 .f32) (x1 : Vec F S128x128 .f32) : Vec F S10000x128 .f32 :=
  View.canon [⟨r0_0, k0_pay1 (View.ld x0 r0_0) (View.ld x1 r0_1)⟩]

/-- The one store covers the block. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The body on whole staging memrefs, the inputs' at contents x0, x1 and the output's at anything, runs to the
    continuation with the inputs as they were and the output at out0_2 x0 x1. -/
theorem sound_kernel0 (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core c: the arrays as the region finds them; after the body at point t each
    input's buffer at its block and the output's at the product of the two blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of @main: the row-blocked  h0b = max(agg0 + b1, 0) · W2.  The grid has 10 points; point t stages
  rows 10000·t … 10000·t + 9999 of agg0 (window 0), the 1×128 bias row (window 1, fetched once), the whole
  128×128 weight (window 2, fetched once) and writes back the same rows of the result (window 3).  Stated at a
  parameter V, the buffer contents when the region is entered, and at any float instance: each window's block
  at a point, what the body leaves in the output's staging buffer (one whole-block store), the body's triple,
  the pipeline's proof data and the body obligation at every point.
-/
import proofs.«104939_j59184649339354_1_alg».proof.Proof.Gen.KernelIdeal.Launch
import proofs.«104939_j59184649339354_1_alg».proof.Proof.Gen.KernelIdeal.Skeleton
import proofs.«104939_j59184649339354_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of agg0: its current staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight: fetched once, its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole block -/

abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0

/-- The output's staging buffer after the body: one store of the whole block, the body's value of the three
    loaded blocks (bias row, activation rows, weight — the order the body loads them in). -/
def out1_3 (x0 : Vec F S10000x128 .f32) (x1 : Vec F S1x128 .f32) (x2 : Vec F S128x128 .f32) : Vec F S10000x128 .f32 :=
  View.canon [⟨r1_0, k1_pay1 (View.ld x1 r1_1) (View.ld x0 r1_0) (View.ld x2 r1_2)⟩]

/-- The one store covers the block. -/
theorem cover1_3 (p0 : Vec F S10000x128 .f32) (y : S10000x128.Idx) :
    ∃ pc ∈ ([⟨r1_0, p0⟩] : List (View.Piece (Elt F) S10000x128 .f32)), y ∈ pc.1.set :=
  View.cover_of_tiled [⟨r1_0, p0⟩] S10000x128.size (by rfl) y

/-! ## The body's triple -/

set_option maxHeartbeats 1000000 in
/-- The body on whole staging memrefs, the inputs' at contents x0, x1, x2 and the output's at anything, runs to
    the continuation with the inputs as they were and the output at out1_3 x0 x1 x2. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_mm_kernel i arg1 harg1 arg2 harg2 arg3 harg3 arg4 harg4) K := by
  simp only [cc1__bias_relu_mm_kernel_eq_skeleton]; unfold cc1__bias_relu_mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Pipeline 1's proof data on core c: the arrays as the region finds them; after the body at point t each
    input's buffer at its block and the output's at the body's value of the three blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
/- Region 2 (the column mean of agg + bias over 100000 rows, accumulated over a grid of 10 points in a
   scratch row and stored at the last point): what the three control cases of its body share — the two
   branch conditions in closed form over the grid, where the output window is idle, the staging and scratch
   memrefs, the region invariant with the scratch row named, and the input windows' blocks read off the
   arrays as the region finds them (a parameter `V`). -/
import proofs.«104939_j59184649339354_1_alg».proof.Proof.Gen.KernelIdeal.Launch
import proofs.«104939_j59184649339354_1_alg».proof.Proof.Gen.KernelIdeal.Skeleton
import proofs.«104939_j59184649339354_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
-- membership in a rectangle with a long axis is decided coordinate by coordinate: the structural recursion is
-- as deep as the axis is long
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's first conditional (zero the scratch row), from the grid coordinate. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-- The condition of the body's second conditional (store the mean), from the grid coordinate. -/
abbrev cond2_1 (i : grid2.Coords) : Prop := k2_cond2 i = 1#1
/-- It holds at the last point only — decided over the grid. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Windows 0 and 1 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
/-- At the first point the output window is idle and not written back: the body stores nothing into it. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- The same at the middle points. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last point the output window is live: the body stores the mean into it. -/
theorem liveAt2_2_C : ∀ t : Fin cfg2.N, ¬cond2_0 (grid2.coords t) → cond2_1 (grid2.coords t) → cfg2.idle 2 (grid2.coords t) = false := by decide +kernel

/-! ## The staging and scratch memrefs -/

/-- The staging buffer of output window 2, through which its contents are stated. -/
abbrev VO2_2 : View sig .tc .vmem S1x128 .f32 := (Memref.whole cc2_stg2_0 : Memref sig .tc .vmem S1x128 .f32).view
/-- Each window's current staging memref at point `t`, spelled as the pipeline passes it, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
/-- The scratch row: a whole scoped buffer of the kernel's own, passed beside the windows. -/
abbrev scM2_0 : Memref sig .tc .vmem S1x128 .f32 := Memref.whole cc2_scratch0
/-- The scratch row as a view: what it holds is stated through it. -/
abbrev VS2_0 : View sig .tc .vmem S1x128 .f32 := scM2_0.view

/-- The core's scoped buffers other than this region's staging buffers and its scratch row, each at some contents:
    carried through the region unopened. -/
abbrev Rest2 (c : Dev nD) : sProp 𝕄 :=
  Pipeline.scopedRestBut (Ix := Unit) (Name := ℕ) (U := UR sig nD τ) (Lvl := ℕ) (Val := Elt F) spec2 c [cc2_scratch0]

/-- The region's class invariant with the scratch row as a memref owned at some contents and the other scoped
    buffers unopened. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA; rw [Pipeline.scopedRest_split_of_list spec2 c [cc2_scratch0] (by decide) (by decide)]
  simp only [scM2_0, owns_whole]; try rfl

/-! ## The input windows' blocks -/

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's (the bias row, fetched at the first point only: its block index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Cert.KernelIdeal.Hand

end
-- ==== Proof.KI.Reg2Run.lean ====
/- Region 2, the body's run in each of its three control cases: at the first grid point (the scratch row is zeroed,
   then the column sums of block + bias row are added to it), at a middle point (the sums are added to the scratch
   row as the point before left it), and at the last point (the same, and the scratch row times the reciprocal of the
   row count is stored into the output window). -/
import proofs.«104939_j59184649339354_1_alg».proof.Proof.KI.Reg2Runs
-- membership in a rectangle with a long axis is decided coordinate by coordinate: the structural recursion is
-- as deep as the axis is long
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave in the output's staging memref and in the scratch row, as pieces (last first), AT THE
    FIRST POINT (first conditional taken, second not), with the proof that on whole staging memrefs — the inputs' at
    their contents, the output's at contents handed back untouched, the scratch row at anything — the body runs to the
    continuation holding the inputs' as they were and the scratch row with its pieces written. The pieces are the
    witness the run finds. -/
noncomputable def kernelRun2_A (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S10000x128 .f32) (x1 : Vec F S1x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__bias_mean_kernel i arg1 harg1 arg2 harg2 arg3 harg3 arg4 harg4) K } := by
  refine ⟨[], ?_, fun xi2 E K => ?run⟩
  case run =>
    simp only [cc2__bias_mean_kernel_eq_skeleton]; unfold cc2__bias_mean_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue walks it past the default budget)
set_option maxHeartbeats 1000000 in
/-- What the body's stores leave in the output's staging memref and in the scratch row, as pieces (last first), AT A
    MIDDLE POINT (neither conditional taken), with the proof that on whole staging memrefs — the inputs' at their
    contents, the output's at contents handed back untouched, the scratch row at what the point before left — the body
    runs to the continuation holding the inputs' as they were and the scratch row with its pieces written. -/
noncomputable def kernelRun2_B (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S10000x128 .f32) (x1 : Vec F S1x128 .f32) (xs0 : Vec F S1x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__bias_mean_kernel i arg1 harg1 arg2 harg2 arg3 harg3 arg4 harg4) K } := by
  refine ⟨[], ?_, fun xi2 E K => ?run⟩
  case run =>
    simp only [cc2__bias_mean_kernel_eq_skeleton]; unfold cc2__bias_mean_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue walks it past the default budget)
set_option maxHeartbeats 1000000 in
/-- What the body's stores leave in the output's staging memref and in the scratch row, as pieces (last first), AT THE
    LAST POINT (first conditional not taken, second taken), with the proof that on whole staging memrefs — the inputs'
    at their contents, the output's at anything, the scratch row at what the point before left — the body runs to the
    continuation holding the inputs' as they were and the output's buffer and the scratch row with their pieces written. -/
noncomputable def kernelRun2_C (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__bias_mean_kernel i arg1 harg1 arg2 harg2 arg3 harg3 arg4 harg4) K } := by
  refine ⟨?_, ?_, fun E K => ?run⟩
  case run =>
    simp only [cc2__bias_mean_kernel_eq_skeleton]; unfold cc2__bias_mean_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.Reg2.lean ====
/- Region 2 (the column mean of agg + bias over 100000 rows): what the output window and the scratch row hold
   case by case and point by point, the region's proof data at the entry contents `V`, the body obligation, and how
   the region invariant is entered and left. -/
import proofs.«104939_j59184649339354_1_alg».proof.Proof.KI.Reg2Run
-- membership in a rectangle with a long axis is decided coordinate by coordinate: the structural recursion is
-- as deep as the axis is long
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- At the first point the body stores nothing into the output window (idle there and not written back): no pieces — a
    placeholder (junk read back) that nothing consults. -/
def out2_A_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S10000x128 .f32) (x1 : Vec F S1x128 .f32) : Vec F S1x128 .f32 :=
  VO2_2.read (Elt F) (VO2_2.writes (Elt F) VO2_2.junk (kernelRun2_A c i arg1 harg1 arg2 harg2 arg3 harg3 arg4 harg4 hc0 hc1 x0 x1).1)

/-- The pieces this case stores into the scratch row tile it, so they cover it. -/
theorem scover2_A_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S10000x128 .f32) (x1 : Vec F S1x128 .f32) (y : S1x128.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x128.size (by sl_kernel_rfl) y

/-- What this case leaves in the scratch row: its pieces read back over junk. -/
def sout2_A_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond2_0 i) (hc1 : ¬cond2_1 i)
    (x0 : Vec F S10000x128 .f32) (x1 : Vec F S1x128 .f32) : Vec F S1x128 .f32 :=
  VS2_0.read (Elt F) (VS2_0.writes (Elt F) VS2_0.junk (kernelRun2_A c i arg1 harg1 arg2 harg2 arg3 harg3 arg4 harg4 hc0 hc1 x0 x1).2.1)

/-- At a middle point the body stores nothing into the output window (idle there and not written back): no pieces — a
    placeholder (junk read back) that nothing consults. -/
def out2_B_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S10000x128 .f32) (x1 : Vec F S1x128 .f32) (xs0 : Vec F S1x128 .f32) : Vec F S1x128 .f32 :=
  VO2_2.read (Elt F) (VO2_2.writes (Elt F) VO2_2.junk (kernelRun2_B c i arg1 harg1 arg2 harg2 arg3 harg3 arg4 harg4 hc0 hc1 x0 x1 xs0).1)

/-- The pieces this case stores into the scratch row tile it, so they cover it. -/
theorem scover2_B_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S10000x128 .f32) (x1 : Vec F S1x128 .f32) (xs0 : Vec F S1x128 .f32) (y : S1x128.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S1x128.size (by sl_kernel_rfl) y

/-- What this case leaves in the scratch row: its pieces read back over junk. -/
def sout2_B_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : ¬cond2_1 i)
    (x0 : Vec F S10000x128 .f32) (x1 : Vec F S1x128 .f32) (xs0 : Vec F S1x128 .f32) : Vec F S1x128 .f32 :=
  VS2_0.read (Elt F) (VS2_0.writes (Elt F) VS2_0.junk (kernelRun2_B c i arg1 harg1 arg2 harg2 arg3 harg3 arg4 harg4 hc0 hc1 x0 x1 xs0).2.1)

/-- At the last point the body's pieces for the output window tile its block (one store of the whole row), so they cover it. -/
theorem cover2_C_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) (y : S1x128.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x128.size (by sl_kernel_rfl) y

/-- What the last point leaves in the output window's staging buffer: its pieces read back over junk. -/
def out2_C_2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) : Vec F S1x128 .f32 :=
  VO2_2.read (Elt F) (VO2_2.writes (Elt F) VO2_2.junk (kernelRun2_C c i arg1 harg1 arg2 harg2 arg3 harg3 arg4 harg4 hc0 hc1 x0 x1 xs0).1)

/-- The pieces this case stores into the scratch row tile it, so they cover it. -/
theorem scover2_C_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) (y : S1x128.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x128.size (by sl_kernel_rfl) y

/-- What this case leaves in the scratch row: its pieces read back over junk. -/
def sout2_C_0 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond2_0 i) (hc1 : cond2_1 i)
    (x0 : Vec F S10000x128 .f32) (x1 : Vec F S1x128 .f32) (xs0 : Vec F S1x128 .f32) : Vec F S1x128 .f32 :=
  VS2_0.read (Elt F) (VS2_0.writes (Elt F) VS2_0.junk (kernelRun2_C c i arg1 harg1 arg2 harg2 arg3 harg3 arg4 harg4 hc0 hc1 x0 x1 xs0).2.1)

/-! ## What the output window and the scratch row hold after each point -/

/-- THE ACCUMULATION. What the output window's staging buffer and the scratch row hold after the body at position `n`
    (a pair: the output, then the scratch row): the case the closed forms select at `n`, run at the point's memrefs and
    input blocks, the scratch row taken at what this leaves at `n - 1`. An assignment of the conditions no point meets
    is no case. -/
def outsAt2 (c : Dev nD) : (n : ℕ) → n < cfg2.N → Vec F S1x128 .f32 × Vec F S1x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 10 = 0 then
      if h1 : (n + 1) % 10 = 9 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 10 = 9 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at the first point: that case's contents. -/
theorem outsAt2_A (c : Dev nD) (t : Fin cfg2.N) (h0 : t.val % 10 = 0) (h1 : ¬t.val % 10 = 9) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a middle point: that case's contents, over what the point before left. -/
theorem outsAt2_B (c : Dev nD) (t : Fin cfg2.N) (h0 : ¬t.val % 10 = 0) (h1 : ¬t.val % 10 = 9) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: that case's contents, over what the point before left. -/
theorem outsAt2_C (c : Dev nD) (t : Fin cfg2.N) (h0 : ¬t.val % 10 = 0) (h1 : t.val % 10 = 9) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch row at anything);
    afterwards the scratch row at what the point before left in it (`outsAt2`'s second component), the other scoped
    buffers unopened, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch row at that point's contents. -/
theorem PhiS2_succ (c : Dev nD) (n : ℕ) (hn : n < cfg2.N) :
    PhiS2 V c (n + 1) hn = iprop(iprop(owns (c : Thread nD τ) scM2_0 fullShare ((outsAt2 V c n hn).2) ∗ Rest2 (F := F) c) ∗ (∃ r, prngReg c r)) := rfl

/-- Before a point that is not the first: the scratch row at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the scratch row at what the point before left (at anything at the first point) and takes it
    back at this point's contents; the other scoped buffers and the generator register pass through; nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val % 10 = 0
  · by_cases h1 : t.val % 10 = 9
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      have hz : t.val = 0 := by omega
      rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 10 = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _)
          iexact HR
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch row's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Hand

end
-- ==== Proof.KI.Run.lean ====
/-
  The run of @main as nine segments: three host stretches, region 0 (h0 = x·W1), a host stretch (the first
  gather / scale / scatter-add), region 1 (h0b = max(agg0 + b1, 0)·W2), a host stretch (the second
  aggregation), region 2 (the mean over the rows of agg1 + b2) and the last host stretch (the two linear
  heads).  The buffer contents at each segment boundary are a fold from the launch memory: a host stretch
  applies its operations, a region puts its output array at what its write-backs leave and keeps every other
  buffer.  From the three regions' proof data and body obligations: every weakly fair execution terminates,
  nothing faults, and every unscoped buffer ends at the last boundary's contents — which gives the frame
  (each argument read back through the fold to the launch memory) and names the two results.
-/
import proofs.«104939_j59184649339354_1_alg».proof.Proof.KI.Reg0
import proofs.«104939_j59184649339354_1_alg».proof.Proof.KI.Reg1
import proofs.«104939_j59184649339354_1_alg».proof.Proof.KI.Reg2
import proofs.«104939_j59184649339354_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its arrays at what the pipeline leaves (the inputs as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the host stretch `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-! ## The arguments end as launched: no host operation writes one, and a region reads one through an input
    window or not at all -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := (W4_arr m ρ c 1).trans (((dat0 (V3 m ρ) c).arrAt_in 1 rfl _).trans (A_eq0 (V3 m ρ) c 1))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := (W6_arr m ρ c 2).trans (((dat1 (V5 m ρ) c).arrAt_in 2 rfl _).trans (A_eq1 (V5 m ρ) c 2))
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_writes_sub hostOps3 _ hostOps3_writes (by decide)
    _ = W7 m ρ c (Proc.devRef .tc main_arg10) := W8_of_ne m ρ c main_arg10 (by decide)
    _ = W6 m ρ c (Proc.devRef .tc main_arg10) := StableHlo.after_of_writes_sub hostOps2 _ hostOps2_writes (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## The regions as segments -/

/-- Region 2's invariant before its first point, from the generator register and the scoped buffers no window
    stages (a table-free pipeline's prefetch resource is dropped). -/
theorem phiA_of2 (c : Dev nD) (P : sProp 𝕄) :
    iprop((∃ r, prngReg c r) ∗ P ∗ Pipeline.scopedRest spec2 c) ⊢ (Pipeline.ΦA spec2 c : sProp 𝕄) := by
  unfold Pipeline.ΦA
  iintro ⟨Hp, -, Hr⟩
  isplitl [Hr]; · iexact Hr
  iexact Hp
/-- and what it gives back after the last point. -/
theorem of_phiA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at W3, left at W4. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are
    split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of2 c _).trans (hin2 (V7 m ρ) c)
  hout c := by
    rw [Pipeline.ownSems0_none]
    exact (hout2 (V7 m ρ) c).trans (of_phiA2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩) (run_all m ρ)

end Cert.KernelIdeal.Hand

end
-- ==== Proof.KI.Val0.lean ====
/-
  Region 0's output array as one function of the arrays the region finds.  Point t of the grid writes back rows
  10000·t … 10000·t + 9999 of the result; its staging buffer then holds the body's value of rows
  10000·t … of x and of the whole weight.  So if a function G of the array index agrees with the body's value
  block by block, the array ends holding G: the ten row blocks cover the 100000 rows.
-/
import proofs.«104939_j59184649339354_1_alg».proof.Proof.KI.Reg0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F] [Named F]

variable (V : (c : Dev nD) → (b : Ref sig .tc) → Buf (Elt F) ((c : Thread nD τ).loc b))

theorem hz0 : (![0, 0] : Fin 2 → Nat) = fun _ => 0 := funext fun a => by fin_cases a <;> rfl

/-- The printed index maps, decided over the grid: the row-block windows sit at block t, the weight's at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of x's block at point t is row 10000·t + p of x. -/
theorem iblk0_0_apply (c : Dev nD) (t : Fin cfg0.N) (p : Fin 10000) (k : Fin 128) (n : Fin 100000) (hn : n.val = 10000 * t.val + p.val) :
    (iblk0 V c 0 t : Vec F S10000x128 .f32) (ix2 p k) = (V c main_arg0 : S100000x128.Idx → Elt F .f32) (ix2 n k) := by
  obtain ⟨e0, e1, -⟩ := idx0 t
  unfold iblk0
  rw [View.read_apply]
  show V c main_arg0 _ = V c main_arg0 _
  refine congrArg _ ?_
  funext a; apply Fin.ext
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The weight's block at any point is the whole weight. -/
theorem iblk0_1_apply (c : Dev nD) (t : Fin cfg0.N) (k q : Fin 128) :
    (iblk0 V c 1 t : Vec F S128x128 .f32) (ix2 k q) = (V c main_arg3 : S128x128.Idx → Elt F .f32) (ix2 k q) := by
  obtain ⟨-, -, e2, e3, -⟩ := idx0 t
  unfold iblk0
  rw [View.read_apply]
  show V c main_arg3 _ = V c main_arg3 _
  refine congrArg _ ?_
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- An index of the result is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- THE RESULT ARRAY after the region is any function that agrees with the body's value block by block. -/
theorem final0_of (c : Dev nD) (G : S100000x128.Idx → Elt F .f32)
    (hG : ∀ (t : Fin cfg0.N) (p : Fin 10000) (q : Fin 128) (n : Fin 100000), n.val = 10000 * t.val + p.val →
      k0_pay1 (iblk0 V c 0 t) (iblk0 V c 1 t) (ix2 p q) = G (ix2 n q)) :
    (dat0 V c).arrAt 2 cfg0.N = G := by
  have hN : cfg0.N = 10 := N_0
  refine (dat0 V c).arrAt_eq_of_cover 2 G (fun t _ => ?_) (fun i => ?_)
  · show (cfg0.win 2).cut (grid0.coords t) ((dat0 V c).after 2 t) = _
    rw [after0_2]
    unfold out0_2
    rw [View.canon_unit_zero hz0]
    simp only [View.ld_unit_zero (S := S10000x128) hz0, View.ld_unit_zero (S := S128x128) hz0]
    obtain ⟨-, -, -, -, e4, e5⟩ := idx0 t
    have ht : t.val < 10 := hN ▸ t.isLt
    funext (j : S10000x128.Idx)
    obtain ⟨p, q, rfl⟩ : ∃ (p : Fin 10000) (q : Fin 128), j = ix2 p q := ⟨j 0, j 1, eq_ix2 j⟩
    show k0_pay1 (iblk0 V c 0 t) (iblk0 V c 1 t) (ix2 p q) = G (((cfg0.win 2).blk t).view.emb (ix2 p q))
    have he : ((cfg0.win 2).blk t).view.emb (ix2 p q) = ix2 (⟨10000 * t.val + p.val, by omega⟩ : Fin 100000) q := by
      funext a; apply Fin.ext
      match a with
      | ⟨0, _⟩ => show win0_2.index t (0 : Fin 2) * 10000 + 1 * p.val = 10000 * t.val + p.val; rw [e4]; omega
      | ⟨1, _⟩ => show win0_2.index t (1 : Fin 2) * 128 + 1 * q.val = q.val; rw [e5]; omega
    rw [he]
    exact hG t p q _ rfl
  · have hi0 : (i 0).val < 100000 := (i 0).isLt
    have hi1 : (i 1).val < 128 := (i 1).isLt
    have htN : (i 0).val / 10000 < cfg0.N := by rw [hN]; omega
    obtain ⟨-, -, -, -, e4, e5⟩ := idx0 ⟨(i 0).val / 10000, htN⟩
    refine ⟨⟨(i 0).val / 10000, htN⟩, flush0_2 _, ?_⟩
    rw [mem_blk0]
    intro a
    match a with
    | ⟨0, _⟩ =>
      show win0_2.index ⟨(i 0).val / 10000, htN⟩ (0 : Fin 2) * 10000 ≤ (i 0).val ∧ (i 0).val < win0_2.index ⟨(i 0).val / 10000, htN⟩ (0 : Fin 2) * 10000 + 10000
      rw [e4]; show (i 0).val / 10000 * 10000 ≤ (i 0).val ∧ (i 0).val < (i 0).val / 10000 * 10000 + 10000; omega
    | ⟨1, _⟩ =>
      show win0_2.index ⟨(i 0).val / 10000, htN⟩ (1 : Fin 2) * 128 ≤ (i 1).val ∧ (i 1).val < win0_2.index ⟨(i 0).val / 10000, htN⟩ (1 : Fin 2) * 128 + 128
      rw [e5]; omega

end Cert.KernelIdeal.Hand

end
-- ==== Proof.KI.Val1.lean ====
/-
  Region 1's output array as one function of the arrays the region finds.  Point t of the grid writes back rows
  10000·t … 10000·t + 9999 of the result; its staging buffer then holds the body's value of the bias row, of
  rows 10000·t … of the aggregated activations and of the whole weight.  So if a function G of the array index
  agrees with the body's value block by block, the array ends holding G: the ten row blocks cover the rows.
-/
import proofs.«104939_j59184649339354_1_alg».proof.Proof.KI.Reg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F] [Named F]

variable (V : (c : Dev nD) → (b : Ref sig .tc) → Buf (Elt F) ((c : Thread nD τ).loc b))

theorem hz1 : (![0, 0] : Fin 2 → Nat) = fun _ => 0 := funext fun a => by fin_cases a <;> rfl

/-- The printed index maps, decided over the grid: the row-block windows sit at block t, the others at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the activations' block at point t is row 10000·t + p of the array. -/
theorem iblk1_0_apply (c : Dev nD) (t : Fin cfg1.N) (p : Fin 10000) (k : Fin 128) (n : Fin 100000) (hn : n.val = 10000 * t.val + p.val) :
    (iblk1 V c 0 t : Vec F S10000x128 .f32) (ix2 p k) = (V c main_v45 : S100000x128.Idx → Elt F .f32) (ix2 n k) := by
  obtain ⟨e0, e1, -⟩ := idx1 t
  unfold iblk1
  rw [View.read_apply]
  show V c main_v45 _ = V c main_v45 _
  refine congrArg _ ?_
  funext a; apply Fin.ext
  match a with
  | ⟨0, _⟩ => show win1_0.index t (0 : Fin 2) * 10000 + 1 * p.val = n.val; rw [e0, hn]; omega
  | ⟨1, _⟩ => show win1_0.index t (1 : Fin 2) * 128 + 1 * k.val = k.val; rw [e1]; omega

/-- The bias row's block at any point is the whole row. -/
theorem iblk1_1_apply (c : Dev nD) (t : Fin cfg1.N) (z : Fin 1) (k : Fin 128) :
    (iblk1 V c 1 t : Vec F S1x128 .f32) (ix2 z k) = (V c main_v46 : S1x128.Idx → Elt F .f32) (ix2 z k) := by
  obtain ⟨-, -, e2, e3, -⟩ := idx1 t
  unfold iblk1
  rw [View.read_apply]
  show V c main_v46 _ = V c main_v46 _
  refine congrArg _ ?_
  funext a; apply Fin.ext
  match a with
  | ⟨0, _⟩ => show win1_1.index t (0 : Fin 2) * 1 + 1 * z.val = z.val; rw [e2]; omega
  | ⟨1, _⟩ => show win1_1.index t (1 : Fin 2) * 128 + 1 * k.val = k.val; rw [e3]; omega

/-- The weight's block at any point is the whole weight. -/
theorem iblk1_2_apply (c : Dev nD) (t : Fin cfg1.N) (k q : Fin 128) :
    (iblk1 V c 2 t : Vec F S128x128 .f32) (ix2 k q) = (V c main_arg5 : S128x128.Idx → Elt F .f32) (ix2 k q) := by
  obtain ⟨-, -, -, -, e4, e5, -⟩ := idx1 t
  unfold iblk1
  rw [View.read_apply]
  show V c main_arg5 _ = V c main_arg5 _
  refine congrArg _ ?_
  funext a; apply Fin.ext
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-- An index of the result is in point t's block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v47).slice (win1_3.rect t)).set ↔ _
  rw [View.set_slice_whole, Rect.mem_set_unit]
  exact Iff.rfl

/-- THE RESULT ARRAY after the region is any function that agrees with the body's value block by block. -/
theorem final1_of (c : Dev nD) (G : S100000x128.Idx → Elt F .f32)
    (hG : ∀ (t : Fin cfg1.N) (p : Fin 10000) (q : Fin 128) (n : Fin 100000), n.val = 10000 * t.val + p.val →
      k1_pay1 (iblk1 V c 1 t) (iblk1 V c 0 t) (iblk1 V c 2 t) (ix2 p q) = G (ix2 n q)) :
    (dat1 V c).arrAt 3 cfg1.N = G := by
  have hN : cfg1.N = 10 := N_1
  refine (dat1 V c).arrAt_eq_of_cover 3 G (fun t _ => ?_) (fun i => ?_)
  · show (cfg1.win 3).cut (grid1.coords t) ((dat1 V c).after 3 t) = _
    rw [after1_3]
    unfold out1_3
    rw [View.canon_unit_zero hz1]
    simp only [View.ld_unit_zero (S := S10000x128) hz1, View.ld_unit_zero (S := S128x128) hz1, View.ld_unit_zero (S := S1x128) hz1]
    obtain ⟨-, -, -, -, -, -, e6, e7⟩ := idx1 t
    have ht : t.val < 10 := hN ▸ t.isLt
    funext (j : S10000x128.Idx)
    obtain ⟨p, q, rfl⟩ : ∃ (p : Fin 10000) (q : Fin 128), j = ix2 p q := ⟨j 0, j 1, eq_ix2 j⟩
    show k1_pay1 (iblk1 V c 1 t) (iblk1 V c 0 t) (iblk1 V c 2 t) (ix2 p q) = G (((cfg1.win 3).blk t).view.emb (ix2 p q))
    have he : ((cfg1.win 3).blk t).view.emb (ix2 p q) = ix2 (⟨10000 * t.val + p.val, by omega⟩ : Fin 100000) q := by
      funext a; apply Fin.ext
      match a with
      | ⟨0, _⟩ => show win1_3.index t (0 : Fin 2) * 10000 + 1 * p.val = 10000 * t.val + p.val; rw [e6]; omega
      | ⟨1, _⟩ => show win1_3.index t (1 : Fin 2) * 128 + 1 * q.val = q.val; rw [e7]; omega
    rw [he]
    exact hG t p q _ rfl
  · have hi0 : (i 0).val < 100000 := (i 0).isLt
    have hi1 : (i 1).val < 128 := (i 1).isLt
    have htN : (i 0).val / 10000 < cfg1.N := by rw [hN]; omega
    obtain ⟨-, -, -, -, -, -, e6, e7⟩ := idx1 ⟨(i 0).val / 10000, htN⟩
    refine ⟨⟨(i 0).val / 10000, htN⟩, flush1_3 _, ?_⟩
    rw [mem_blk1]
    intro a
    match a with
    | ⟨0, _⟩ =>
      show win1_3.index ⟨(i 0).val / 10000, htN⟩ (0 : Fin 2) * 10000 ≤ (i 0).val ∧ (i 0).val < win1_3.index ⟨(i 0).val / 10000, htN⟩ (0 : Fin 2) * 10000 + 10000
      rw [e6]; show (i 0).val / 10000 * 10000 ≤ (i 0).val ∧ (i 0).val < (i 0).val / 10000 * 10000 + 10000; omega
    | ⟨1, _⟩ =>
      show win1_3.index ⟨(i 0).val / 10000, htN⟩ (1 : Fin 2) * 128 ≤ (i 1).val ∧ (i 1).val < win1_3.index ⟨(i 0).val / 10000, htN⟩ (1 : Fin 2) * 128 + 128
      rw [e7]; omega

end Cert.KernelIdeal.Hand

end
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.Val.Pay.lean ====
/-
  The three kernel bodies' arithmetic, read one entry at a time on the extended reals.

  The first body is a plain matrix product of a [10000, 128] block of rows with a [128, 128] matrix. The second adds a
  bias row to each row of its block, clamps below at zero, and multiplies by a [128, 128] matrix. The third keeps a
  [1, 128] running total of column sums: it starts the total at zero, adds to it each block's column sums of the block
  plus a bias row, and at the end scales the total by the reciprocal 1/100000. A change of float format is the identity
  on the extended reals, a cast to the same shape is the identity, a row broadcast over many rows reads its one row,
  and the zero pattern denotes zero.
-/
import proofs.«104939_j59184649339354_1_alg».proof.Proof.Gen.KernelIdeal.Skeleton
import proofs.«104939_j59184649339354_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section
open scoped BigOperators

namespace Cert.Bridge.Pay

open Idealize.ShloMosaic Idealize.ShloMosaic.ValueIdx Cert.KernelIdeal Cert.KernelIdeal.Gen

/-- The product's dimension numbers: the left operand's columns meet the right operand's rows, nothing is batched. -/
theorem dot_plain : Cert.PlainDot.IsPlain dot_S10000x128_S128x128_S10000x128_1_0_0_1_n_n :=
  ⟨rfl, rfl, rfl, rfl, rfl, rfl⟩

/-- The first body at an entry: row `p` of the block times column `q` of the matrix. -/
theorem pay0_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  exact Cert.PlainDot.matmul_zero_plain dot_S10000x128_S128x128_S10000x128_1_0_0_1_n_n dot_plain none _ _ (ix2 p q)

/-- The second body at an entry: the clamped, biased row `p` times column `q` of the matrix. -/
theorem pay1_apply (b : Vec Ideal S1x128 .f32) (a : Vec Ideal S10000x128 .f32) (w : Vec Ideal S128x128 .f32)
    (p : Fin 10000) (q : Fin 128) :
    k1_pay1 (F := Ideal) b a w (ix2 p q)
      = ∑ k : Fin 128, max (a (ix2 p k) + b (ix2 (0 : Fin 1) k)) (0 : EReal) * w (ix2 k q) := by
  unfold k1_pay1
  refine (Cert.PlainDot.matmul_zero_plain dot_S10000x128_S128x128_S10000x128_1_0_0_1_n_n dot_plain none _ _ (ix2 p q)).trans ?_
  refine Finset.sum_congr rfl fun k _ => ?_
  show max (shapeCast S10000x128 a shapeCasts_S10000x128_S10000x128 (ix2 p k)
      + broadcastTo S10000x128 (shapeCast S1x128 (shapeCast S1x128 b shapeCasts_S1x128_S1x128) shapeCasts_S1x128_S1x128)
          broadcasts_S1x128_S10000x128 (ix2 p k)) (Ideal.ofBits .f32 0x00000000#32) * w (ix2 k q) = _
  rw [broadcastTo_1b_ab_apply, shapeCast_self, shapeCast_self, shapeCast_self, Ideal.ofBits_zero_f32]

/-- The running total starts at zero. -/
theorem pay2_zero (q : Fin 128) : k2_pay1 (F := Ideal) (ix2 (0 : Fin 1) q) = (0 : EReal) := by
  unfold k2_pay1
  show shapeCast S1x128 (broadcast S1x128 (Ideal.ofBits .f32 0x00000000#32)) shapeCasts_S1x128_S1x128 (ix2 (0 : Fin 1) q) = 0
  rw [shapeCast_self]
  exact Ideal.ofBits_zero_f32

/-- A sum down the rows of a [10000, 128] block, read at column `q`. The zero accumulator's side condition is typed as
    the body spells it. -/
theorem col_sum (src : FVec Ideal S10000x128 .f32) (hφ : FKind.Formats .f32)
    (hacc : (0x00000000#32 : BitVec 32) = 0x00000000#32) (q : Fin 128) :
    multiReduction .add [0] S128 src 0x00000000#32 reduces_S10000x128_S128 hφ hacc (ix1 q)
      = ∑ r : Fin 10000, src (ix2 r q) := by
  refine (Ideal.multiReduction_add_single src 0x00000000#32 reduces_S10000x128_S128 hφ hacc (ix1 q)).trans ?_
  refine Finset.sum_congr rfl fun r _ => congrArg src (funext fun a => ?_)
  match a with
  | ⟨0, _⟩ => rfl
  | ⟨1, _⟩ => rfl

/-- One step of the running total: the block's column sums of the block plus the bias row are added to it. -/
theorem pay2_step (b : Vec Ideal S1x128 .f32) (a : Vec Ideal S10000x128 .f32) (acc : Vec Ideal S1x128 .f32) (q : Fin 128) :
    k2_pay2 (F := Ideal) b a acc (ix2 (0 : Fin 1) q)
      = acc (ix2 (0 : Fin 1) q) + ∑ r : Fin 10000, (a (ix2 r q) + b (ix2 (0 : Fin 1) q)) := by
  unfold k2_pay2
  show shapeCast S1x128 (addf (F := Ideal) acc (shapeCast S1x128
      (multiReduction (F := Ideal) .add [0] S128
        (addf (F := Ideal) (shapeCast S10000x128 a shapeCasts_S10000x128_S10000x128)
          (broadcastTo S10000x128 (shapeCast S1x128 (shapeCast S1x128 b shapeCasts_S1x128_S1x128) shapeCasts_S1x128_S1x128)
            broadcasts_S1x128_S10000x128))
        0x00000000#32 reduces_S10000x128_S128 (.inl rfl) rfl)
      shapeCasts_S128_S1x128)) shapeCasts_S1x128_S1x128 (ix2 (0 : Fin 1) q) = _
  rw [shapeCast_self, shapeCast_self, shapeCast_self, shapeCast_self]
  show acc (ix2 (0 : Fin 1) q) + shapeCast S1x128 _ shapeCasts_S128_S1x128 (ix2 (0 : Fin 1) q) = _
  rw [shapeCast_a_1a_apply, col_sum]
  refine congrArg (_ + ·) (Finset.sum_congr rfl fun r _ => ?_)
  show a (ix2 r q) + broadcastTo S10000x128 b broadcasts_S1x128_S10000x128 (ix2 r q) = _
  rw [broadcastTo_1b_ab_apply]

/-- The scaling constant is the rational 1/100000, by the certificate's table of named constants. -/
theorem inv_n : Named.named (F := Ideal) Cert.KernelIdeal.κ "inv_100000" (φ := .f32) 0x3727C5AC#32 = ((1 / 100000 : ℝ) : EReal) :=
  IdealRules.named_const.ideal_named_scalar _ _ _ _ rfl

/-- The last step: the running total times 1/100000. -/
theorem pay2_out (v : Vec Ideal S1x128 .f32) (q : Fin 128) :
    k2_pay3 (F := Ideal) v (ix2 (0 : Fin 1) q) = v (ix2 (0 : Fin 1) q) * ((1 / 100000 : ℝ) : EReal) := by
  unfold k2_pay3
  show v (ix2 (0 : Fin 1) q) * Named.named (F := Ideal) Cert.KernelIdeal.κ "inv_100000" (φ := .f32) 0x3727C5AC#32 = _
  rw [inv_n]

end Cert.Bridge.Pay

end
-- ==== Proof.LibRecipDiv.lean ====
/-
  Dividing by a count on the extended reals.

  Off zero, the exact quotient x / c is the product of x with 1 / c — also when x or c is infinite — so a program that
  multiplies by a reciprocal agrees with one that divides. A count clamped below by one (a maximum with one) is at least
  one, hence not zero, whatever the count is. The binary32 pattern 0x3F800000 denotes one.
-/
import Idealize.ShloMosaic.PureOps.Ideal

noncomputable section
namespace Cert.RecipDiv
open Idealize.ShloMosaic

/-- The binary32 pattern of one denotes one. -/
theorem one_f32 : Ideal.ofBits .f32 0x3F800000#32 = 1 := by
  simp [Ideal.ofBits, Ideal.ieee, -EReal.coe_mul]; norm_num

/-- A maximum with one is at least one, so it is not zero. -/
theorem max_one_ne_zero (n : EReal) : max n 1 ≠ 0 :=
  (lt_of_lt_of_le zero_lt_one (le_max_right n 1)).ne'

/-- Off zero, a quotient is the product with the reciprocal of the divisor — at the infinities too. -/
theorem div_eq_mul_recip (x c : EReal) (hc : c ≠ 0) : Ideal.div x c = x * Ideal.div 1 c := by
  simp only [Ideal.div, if_neg hc, one_mul]

end Cert.RecipDiv

end
-- ==== Proof.Val.Consts.lean ====
/-
  The float constants of the reference that the bridge evaluates, as the extended reals their patterns denote.
  The binary32 pattern 0x47C35000 has sign 0, exponent field 143 and fraction field 4411392, so it denotes
  (2^23 + 4411392) · 2^(143 − 127 − 23) = 12800000 / 128 = 100000. Patterns are unfolded in this one module.
-/
import proofs.«104939_j59184649339354_1_alg».proof.Proof.LibRecipDiv

noncomputable section

namespace Cert.Bridge.Consts

open Idealize.ShloMosaic

/-- The reference's divisor `100000.0` denotes the real 100000. -/
theorem ofBits_100000 : Ideal.ofBits .f32 0x47C35000#32 = ((100000 : ℝ) : EReal) := by
  simp [Ideal.ofBits, Ideal.ieee, -EReal.coe_mul]; norm_num

end Cert.Bridge.Consts

end
-- ==== Proof.Val.Ref.lean ====
/-
  Three stages of the reference, read one entry at a time on the extended reals.

  The first is a plain matrix product of the [100000, 128] input with a [128, 128] matrix. The second adds a bias
  vector to each row of an aggregated array, clamps below at zero, and multiplies by a [128, 128] matrix. The third is
  a column mean: a bias vector is added to each row of a second aggregated array, the 100000 rows are summed from zero,
  and the sum is divided by 100000. The aggregated arrays themselves are left as they are named; only the operations
  after them are read. A vector broadcast along the rows reads its entry at the column, the zero pattern denotes zero,
  and the divisor's pattern denotes the real 100000.
-/
import proofs.«104939_j59184649339354_1_alg».proof.Proof.Gen.ReferenceIdeal.Read
import proofs.«104939_j59184649339354_1_alg».proof.Proof.Val.Consts
import Idealize.ShloMosaic.Lib.ValueIdx
import Idealize.ShloMosaic.PureOps.Ideal.Laws

noncomputable section
open scoped BigOperators

namespace Cert.Bridge.Ref

open Cert.ReferenceIdeal Cert.ReferenceIdeal.Gen Cert.ReferenceIdeal.Read Idealize.ShloMosaic Idealize.ShloMosaic.ValueIdx

/-! ## The index maps at coordinates -/

/-- The first product's left operand is read at row `n`, column `k`. -/
theorem lidx32 (n : Fin 100000) (q k : Fin 128) : lidx_main_v32 (ix2 n q) k = ix2 n k :=
  funext fun a => by match a with | ⟨0, _⟩ => rfl | ⟨1, _⟩ => rfl
/-- The first product's right operand is read at row `k`, column `q`. -/
theorem ridx32 (n : Fin 100000) (q k : Fin 128) : ridx_main_v32 (ix2 n q) k = ix2 k q :=
  funext fun a => by match a with | ⟨0, _⟩ => rfl | ⟨1, _⟩ => rfl
/-- The second product's left operand is read at row `n`, column `k`. -/
theorem lidx78 (n : Fin 100000) (q k : Fin 128) : lidx_main_v78 (ix2 n q) k = ix2 n k :=
  funext fun a => by match a with | ⟨0, _⟩ => rfl | ⟨1, _⟩ => rfl
/-- The second product's right operand is read at row `k`, column `q`. -/
theorem ridx78 (n : Fin 100000) (q k : Fin 128) : ridx_main_v78 (ix2 n q) k = ix2 k q :=
  funext fun a => by match a with | ⟨0, _⟩ => rfl | ⟨1, _⟩ => rfl
/-- The first bias, broadcast along the rows, is read at the column. -/
theorem bias47 (n : Fin 100000) (k : Fin 128) : idx_main_v46 (idx_main_v47 (ix2 n k)) = ix1 k :=
  funext fun a => by match a with | ⟨0, _⟩ => rfl
/-- The second bias, broadcast along the rows, is read at the column. -/
theorem bias93 (n : Fin 100000) (q : Fin 128) : idx_main_v92 (idx_main_v93 (ix2 n q)) = ix1 q :=
  funext fun a => by match a with | ⟨0, _⟩ => rfl
/-- The column sum at column `q` runs over the rows `n` of that column. -/
theorem col95 (q : Fin 128) (n : Fin 100000) : idx_main_v95 (idx_main_v96 (ix2 (0 : Fin 1) q)) n = ix2 n q :=
  funext fun a => by match a with | ⟨0, _⟩ => rfl | ⟨1, _⟩ => rfl

/-! ## The stages -/

/-- The first product at an entry. -/
theorem ref_h0 (x0 : (⟨S100000x128, .f32⟩ : BufTy).Contents (Elt Ideal)) (x3 : (⟨S128x128, .f32⟩ : BufTy).Contents (Elt Ideal)) (n : Fin 100000) (q : Fin 128) :
    val_main_v32 (F := Ideal) x0 x3 (ix2 n q) = ∑ k : Fin 128, x0 (ix2 n k) * x3 (ix2 k q) := by
  rw [val_main_v32_apply]
  refine Finset.sum_congr rfl fun k _ => ?_
  rw [lidx32, ridx32]

/-- The second product at an entry: the clamped, biased row `n` of the first aggregated array times column `q`. -/
theorem ref_h0b (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
    (n : Fin 100000) (q : Fin 128) :
    val_main_v78 (F := Ideal) x0 x1 x2 x3 x4 x5 (ix2 n q)
      = ∑ k : Fin 128, max (val_main_v45 (F := Ideal) x0 x1 x2 x3 (ix2 n k) + x4 (ix1 k)) (0 : EReal) * x5 (ix2 k q) := by
  rw [val_main_v78_apply]
  refine Finset.sum_congr rfl fun k _ => ?_
  rw [lidx78, ridx78, val_main_v49_apply, val_main_v48_apply, val_main_v47_apply, val_main_v46_apply,
    val_main_call1_v0_apply, val_main_call1_cst_apply, bias47]
  simp only [Ideal.maximumf_def, Ideal.addf_def, Ideal.ofBits_def, Ideal.ofBits_zero_f32]

/-- The column mean at column `q`: the biased rows of the second aggregated array summed and divided by 100000. -/
theorem ref_mean (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (q : Fin 128) :
    val_main_v98 (F := Ideal) x0 x1 x2 x3 x4 x5 x6 (ix2 (0 : Fin 1) q)
      = Ideal.div (∑ n : Fin 100000, (val_main_v91 (F := Ideal) x0 x1 x2 x3 x4 x5 (ix2 n q) + x6 (ix1 q)))
          ((100000 : ℝ) : EReal) := by
  rw [val_main_v98_apply, val_main_v96_apply, val_main_v95_apply, val_main_v97_apply, val_main_cst_21_apply,
    val_main_cst_20_apply]
  simp only [Ideal.hostDivf_def, Ideal.ofBits_def, Ideal.ofBits_zero_f32, zero_add, Cert.Bridge.Consts.ofBits_100000]
  have hs : (∑ k : Fin 100000, val_main_v94 (F := Ideal) x0 x1 x2 x3 x4 x5 x6 (idx_main_v95 (idx_main_v96 (ix2 (0 : Fin 1) q)) k))
      = ∑ n : Fin 100000, (val_main_v91 (F := Ideal) x0 x1 x2 x3 x4 x5 (ix2 n q) + x6 (ix1 q)) :=
    Finset.sum_congr rfl fun n _ => by
      rw [col95, val_main_v94_apply, val_main_v93_apply, val_main_v92_apply, bias93]
      simp only [Ideal.addf_def]
  rw [hs]

end Cert.Bridge.Ref

end
-- ==== Proof.Bridge.Layer.lean ====
/-
  The two row-blocked products as the reference's own stages.  After region 0 the product array holds the
  reference's whole product x·W1 of the arrays the region found: entry (n, q) of block t is the body's sum over
  k of row 10000·t + p of x times column q of the weight, and that is the reference's sum at n = 10000·t + p.
  After region 1 the array holds the reference's max(agg + b, 0)·W2, given that the aggregated activations
  the region finds are the reference's, the bias row it finds is the reference's bias vector laid out as a row,
  and the weight is the same: entry by entry both are the sum over k of max(agg(n,k) + b(k), 0)·W2(k,q).
  No finiteness is used: the two sides are the same sums.
-/
import proofs.«104939_j59184649339354_1_alg».proof.Proof.KI.Run
import proofs.«104939_j59184649339354_1_alg».proof.Proof.KI.Val0
import proofs.«104939_j59184649339354_1_alg».proof.Proof.KI.Val1
import proofs.«104939_j59184649339354_1_alg».proof.Proof.Val.Pay
import proofs.«104939_j59184649339354_1_alg».proof.Proof.Val.Ref

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Read (val_main_v32 val_main_v45 val_main_v78)

variable (m : (ℓ : Loc nD τ sig) → Buf (Elt Ideal) ℓ) (ρ : Dev nD → PrngReg)

/-- Region 0 leaves the reference's product of the two arrays it found. -/
theorem region0_value (c : Dev nD) :
    W4 m ρ c (Proc.devRef .tc main_v32) = val_main_v32 (F := Ideal) (V3 m ρ c main_arg0) (V3 m ρ c main_arg3) :=
  (W4_arr m ρ c 2).trans (final0_of (V3 m ρ) c _ fun t p q n hn => by
    refine (Cert.Bridge.Pay.pay0_apply (iblk0 (V3 m ρ) c 0 t) (iblk0 (V3 m ρ) c 1 t) p q).trans ?_
    refine Eq.trans ?_ (Cert.Bridge.Ref.ref_h0 (V3 m ρ c main_arg0) (V3 m ρ c main_arg3) n q).symm
    refine Finset.sum_congr rfl fun k _ => ?_
    exact congrArg₂ (· * ·) (iblk0_0_apply (V3 m ρ) c t p k n hn) (iblk0_1_apply (V3 m ρ) c t k q))

/-- Region 1 leaves the reference's second product, when what it finds is the reference's. -/
theorem region1_value (c : Dev nD) (x0 : S100000x128.Idx → EReal) (x1 : S2x1600000.Idx → BitVec 32) (x2 : S1600000.Idx → EReal)
    (x3 : S128x128.Idx → EReal) (x4 : S128.Idx → EReal) (x5 : S128x128.Idx → EReal)
    (h45 : V5 m ρ c main_v45 = val_main_v45 (F := Ideal) x0 x1 x2 x3)
    (h46 : ∀ k : Fin 128, (V5 m ρ c main_v46 : S1x128.Idx → EReal) (ix2 (0 : Fin 1) k) = x4 (ix1 k))
    (h5 : V5 m ρ c main_arg5 = x5) :
    W6 m ρ c (Proc.devRef .tc main_v47) = val_main_v78 (F := Ideal) x0 x1 x2 x3 x4 x5 :=
  (W6_arr m ρ c 3).trans (final1_of (V5 m ρ) c _ fun t p q n hn => by
    refine (Cert.Bridge.Pay.pay1_apply (iblk1 (V5 m ρ) c 1 t) (iblk1 (V5 m ρ) c 0 t) (iblk1 (V5 m ρ) c 2 t) p q).trans ?_
    refine Eq.trans ?_ (Cert.Bridge.Ref.ref_h0b x0 x1 x2 x3 x4 x5 n q).symm
    refine Finset.sum_congr rfl fun k _ => ?_
    have e0 := iblk1_0_apply (V5 m ρ) c t p k n hn
    have e1 := iblk1_1_apply (V5 m ρ) c t (0 : Fin 1) k
    have e2 := iblk1_2_apply (V5 m ρ) c t k q
    rw [h45] at e0
    rw [h46 k] at e1
    rw [h5] at e2
    exact congrArg₂ (· * ·) (congrArg (max · (0 : EReal)) (congrArg₂ (· + ·) e0 e1)) e2)

end Cert.KernelIdeal.Hand

end
-- ==== Proof.Bridge.Host.lean ====
/-
  The host stretches of the kernel program as the reference's stages.  Both programs apply the same host
  operations (the edge lists with self-loops, the weighted in-degree by a scatter-add, its inverse square root
  where positive, the per-edge normalisation, a gather / scale / scatter-add per layer, and the two linear
  heads); the reference spells each as a named stage of its arguments.  Each lemma here takes the buffer
  contents a stretch starts from as hypotheses — the buffers it reads hold the reference's stages — and
  concludes that a buffer it writes holds the reference's next stage: the stretch's operations are read off
  one by one and the two terms are the same operations of the same operands.
-/
import proofs.«104939_j59184649339354_1_alg».proof.Proof.Gen.KernelIdeal.Launch
import proofs.«104939_j59184649339354_1_alg».proof.Proof.Gen.KernelIdeal.Regions
import proofs.«104939_j59184649339354_1_alg».proof.Proof.Gen.ReferenceIdeal.Read
import Idealize.ShloMosaic.Lib.StableHlo.Run

set_option maxRecDepth 16384

noncomputable section

namespace Cert.Bridge.Host

open Cert.KernelIdeal Cert.KernelIdeal.Gen
open Idealize.ShloMosaic Idealize.ShloMosaic.TcCoe Idealize.SL.Sem Idealize.ShloMosaic.StableHlo
open Cert.ReferenceIdeal.Read

variable (X : Valuation τ sig (Elt Ideal))

/-! ## The first stretch: edge lists, weights with self-loops, the in-degree, its sign test and inverse root -/

set_option maxHeartbeats 1000000 in
theorem s0_v5 : StableHlo.after hostOps0 X (Proc.devRef .tc main_v5) = val_main_v5 (F := Ideal) (X (Proc.devRef .tc main_arg1)) := by
  after_results_simp; rfl
set_option maxHeartbeats 1000000 in
theorem s0_v6 : StableHlo.after hostOps0 X (Proc.devRef .tc main_v6) = val_main_v6 (F := Ideal) (X (Proc.devRef .tc main_arg1)) := by
  after_results_simp; rfl
set_option maxHeartbeats 1000000 in
theorem s0_v8 : StableHlo.after hostOps0 X (Proc.devRef .tc main_v8) = val_main_v8 (F := Ideal) (X (Proc.devRef .tc main_arg2)) := by
  after_results_simp; rfl
set_option maxHeartbeats 1000000 in
theorem s0_v13 : StableHlo.after hostOps0 X (Proc.devRef .tc main_v13)
    = val_main_v13 (F := Ideal) (X (Proc.devRef .tc main_arg1)) (X (Proc.devRef .tc main_arg2)) := by
  after_results_simp; rfl
set_option maxHeartbeats 1000000 in
theorem s0_v14 : StableHlo.after hostOps0 X (Proc.devRef .tc main_v14)
    = val_main_v14 (F := Ideal) (X (Proc.devRef .tc main_arg1)) (X (Proc.devRef .tc main_arg2)) := by
  after_results_simp; rfl
set_option maxHeartbeats 1000000 in
theorem s0_cst2 : StableHlo.after hostOps0 X (Proc.devRef .tc main_cst_2) = val_main_cst_2 (F := Ideal) := by
  after_results_simp; rfl

/-! ## The second stretch: the inverse root where the degree is positive, zero elsewhere -/

set_option maxHeartbeats 1000000 in
/-- Over any contents: the stretch selects between the buffers it reads. -/
theorem s1_select : StableHlo.after hostOps0_1 X (Proc.devRef .tc main_v15)
    = select (X (Proc.devRef .tc main_v13)) (X (Proc.devRef .tc main_v14))
        (broadcastInDim S100000 ![] bcast_S_S100000 (id (X (Proc.devRef .tc main_cst_2)))) := by
  after_results_simp; rfl

theorem s1_v15 (x1 : (⟨S2x1600000, .i32⟩ : BufTy).Contents (Elt Ideal)) (x2 : (⟨S1600000, .f32⟩ : BufTy).Contents (Elt Ideal))
    (h13 : X (Proc.devRef .tc main_v13) = val_main_v13 (F := Ideal) x1 x2)
    (h14 : X (Proc.devRef .tc main_v14) = val_main_v14 (F := Ideal) x1 x2)
    (hc : X (Proc.devRef .tc main_cst_2) = val_main_cst_2 (F := Ideal)) :
    StableHlo.after hostOps0_1 X (Proc.devRef .tc main_v15) = val_main_v15 (F := Ideal) x1 x2 := by
  rw [s1_select, h13, h14, hc]; rfl

/-! ## The third stretch: the per-edge normalisation -/

set_option maxHeartbeats 2000000 in
theorem s2_v31 (x1 : (⟨S2x1600000, .i32⟩ : BufTy).Contents (Elt Ideal)) (x2 : (⟨S1600000, .f32⟩ : BufTy).Contents (Elt Ideal))
    (h5 : X (Proc.devRef .tc main_v5) = val_main_v5 (F := Ideal) x1)
    (h6 : X (Proc.devRef .tc main_v6) = val_main_v6 (F := Ideal) x1)
    (h8 : X (Proc.devRef .tc main_v8) = val_main_v8 (F := Ideal) x2)
    (h15 : X (Proc.devRef .tc main_v15) = val_main_v15 (F := Ideal) x1 x2) :
    StableHlo.after hostOps0_2 X (Proc.devRef .tc main_v31) = val_main_v31 (F := Ideal) x1 x2 := by
  after_results_simp
  rw [h5, h6, h8, h15]
  rfl

/-! ## The reference recomputes the edge lists and the normalisation for its second layer: the same stages -/

theorem dup5 (x1 : (⟨S2x1600000, .i32⟩ : BufTy).Contents (Elt Ideal)) : val_main_v51 (F := Ideal) x1 = val_main_v5 (F := Ideal) x1 := rfl
theorem dup6 (x1 : (⟨S2x1600000, .i32⟩ : BufTy).Contents (Elt Ideal)) : val_main_v52 (F := Ideal) x1 = val_main_v6 (F := Ideal) x1 := rfl
set_option maxHeartbeats 1000000 in
theorem dup31 (x1 : (⟨S2x1600000, .i32⟩ : BufTy).Contents (Elt Ideal)) (x2 : (⟨S1600000, .f32⟩ : BufTy).Contents (Elt Ideal)) : val_main_v77 (F := Ideal) x1 x2 = val_main_v31 (F := Ideal) x1 x2 := rfl

/-! ## The fourth stretch: the first layer's gather, scale and scatter-add -/

set_option maxHeartbeats 2000000 in
theorem s3_v45 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal))
    (h5 : X (Proc.devRef .tc main_v5) = val_main_v5 (F := Ideal) x1)
    (h6 : X (Proc.devRef .tc main_v6) = val_main_v6 (F := Ideal) x1)
    (h31 : X (Proc.devRef .tc main_v31) = val_main_v31 (F := Ideal) x1 x2)
    (h32 : X (Proc.devRef .tc main_v32) = val_main_v32 (F := Ideal) x0 x3) :
    StableHlo.after hostOps1 X (Proc.devRef .tc main_v45) = val_main_v45 (F := Ideal) x0 x1 x2 x3 := by
  after_results_simp
  rw [h5, h6, h31, h32]
  rfl

/-! ## The fifth stretch: the second layer's gather, scale and scatter-add -/

set_option maxHeartbeats 2000000 in
theorem s4_v60 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal))
    (h5 : X (Proc.devRef .tc main_v5) = val_main_v5 (F := Ideal) x1)
    (h6 : X (Proc.devRef .tc main_v6) = val_main_v6 (F := Ideal) x1)
    (h31 : X (Proc.devRef .tc main_v31) = val_main_v31 (F := Ideal) x1 x2)
    (h47 : X (Proc.devRef .tc main_v47) = val_main_v78 (F := Ideal) x0 x1 x2 x3 x4 x5) :
    StableHlo.after hostOps2 X (Proc.devRef .tc main_v60) = val_main_v91 (F := Ideal) x0 x1 x2 x3 x4 x5 := by
  after_results_simp
  rw [h5, h6, h31, h47, ← dup5, ← dup6, ← dup31]
  rfl

/-! ## The last stretch: the two linear heads on the pooled row -/

set_option maxHeartbeats 1000000 in
theorem s5_v65 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal))
    (h62 : X (Proc.devRef .tc main_v62) = val_main_v98 (F := Ideal) x0 x1 x2 x3 x4 x5 x6)
    (h7 : X (Proc.devRef .tc main_arg7) = x7) (h8 : X (Proc.devRef .tc main_arg8) = x8) :
    StableHlo.after hostOps3 X (Proc.devRef .tc main_v65) = val_main_v101 (F := Ideal) x0 x1 x2 x3 x4 x5 x6 x7 x8 := by
  after_results_simp
  rw [h62, h7, h8]
  rfl

set_option maxHeartbeats 1000000 in
theorem s5_v68 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x9 : (⟨S128x64, .f32⟩ : BufTy).Contents (Elt Ideal)) (x10 : (⟨S64, .f32⟩ : BufTy).Contents (Elt Ideal))
    (h62 : X (Proc.devRef .tc main_v62) = val_main_v98 (F := Ideal) x0 x1 x2 x3 x4 x5 x6)
    (h9 : X (Proc.devRef .tc main_arg9) = x9) (h10 : X (Proc.devRef .tc main_arg10) = x10) :
    StableHlo.after hostOps3 X (Proc.devRef .tc main_v68) = val_main_v104 (F := Ideal) x0 x1 x2 x3 x4 x5 x6 x9 x10 := by
  after_results_simp
  rw [h62, h9, h10]
  rfl

end Cert.Bridge.Host

end
-- ==== Proof.KI.Reg2Val.lean ====
/- Region 2 (the column mean of agg + bias over 100000 rows): what the body's stores leave, read as values. In each
   control case the scratch row ends at (what it held, or the zero row at the first point) + the column sums of
   (block + bias row), and at the last point the output window holds the scratch row times the reciprocal of the row
   count; so the scratch row after each point is the running sum in point order. -/
import proofs.«104939_j59184649339354_1_alg».proof.Proof.KI.Reg2
import Idealize.ShloMosaic.Lib.Pipeline.Value
-- membership in a rectangle with a long axis is decided coordinate by coordinate: the structural recursion is
-- as deep as the axis is long
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-buffer rectangle, however spelt. -/
theorem zoff2 : (![0, 0] : Fin 2 → Nat) = fun _ => 0 := funext fun a => by fin_cases a <;> rfl

/-- A middle point leaves in the scratch row: what it held plus the column sums of (block + bias row) — its one covering
    store's payload, whose loads read the whole buffers. -/
theorem sout2_B_0_eq (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc0 : ¬cond2_0 i) (hc1 : ¬cond2_1 i) (x0 : Vec F S10000x128 .f32) (x1 xs0 : Vec F S1x128 .f32) :
    sout2_B_0 c i a1 h1 a2 h2 a3 h3 a4 h4 hc0 hc1 x0 x1 xs0 = k2_pay2 x1 x0 xs0 := by
  unfold sout2_B_0
  rw [View.read_writes_eq_canon _ _ _ (scover2_B_0 c i a1 h1 a2 h2 a3 h3 a4 h4 hc0 hc1 x0 x1 xs0)]
  unfold kernelRun2_B
  dsimp only
  rw [View.canon_unit_zero (S := S1x128) zoff2]
  simp only [View.readAt_eq_ld, h1.read_unread, h2.read_unread, h4.read_unread, View.ld_unit_zero (S := S1x128) zoff2, View.ld_unit_zero (S := S10000x128) zoff2]

/-- The first point stores the zero row, reads it back, and leaves the zero row plus the column sums of (block + bias row). -/
theorem sout2_A_0_eq (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc0 : cond2_0 i) (hc1 : ¬cond2_1 i) (x0 : Vec F S10000x128 .f32) (x1 : Vec F S1x128 .f32) :
    sout2_A_0 c i a1 h1 a2 h2 a3 h3 a4 h4 hc0 hc1 x0 x1 = k2_pay2 x1 x0 (k2_pay1 (F := F)) := by
  unfold sout2_A_0
  rw [View.read_writes_eq_canon _ _ _ (scover2_A_0 c i a1 h1 a2 h2 a3 h3 a4 h4 hc0 hc1 x0 x1)]
  unfold kernelRun2_A
  dsimp only
  sl_unfold_words
  rw [View.canon_cons_unit_zero (S := S1x128) zoff2, View.readCov_unit_zero (S := S1x128) _ zoff2]
  simp only [View.readAt_eq_ld, h1.read_unread, h2.read_unread, h4.read_unread, View.ld_unit_zero (S := S1x128) zoff2, View.ld_unit_zero (S := S10000x128) zoff2]

/-- The last point leaves in the scratch row what a middle point does. -/
theorem sout2_C_0_eq (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc0 : ¬cond2_0 i) (hc1 : cond2_1 i) (x0 : Vec F S10000x128 .f32) (x1 xs0 : Vec F S1x128 .f32) :
    sout2_C_0 c i a1 h1 a2 h2 a3 h3 a4 h4 hc0 hc1 x0 x1 xs0 = k2_pay2 x1 x0 xs0 := by
  unfold sout2_C_0
  rw [View.read_writes_eq_canon _ _ _ (scover2_C_0 c i a1 h1 a2 h2 a3 h3 a4 h4 hc0 hc1 x0 x1 xs0)]
  unfold kernelRun2_C
  dsimp only
  sl_unfold_words
  rw [View.canon_unit_zero (S := S1x128) zoff2]
  simp only [View.readAt_eq_ld, h1.read_unread, h2.read_unread, h4.read_unread, View.ld_unit_zero (S := S1x128) zoff2, View.ld_unit_zero (S := S10000x128) zoff2]

/-- And in the output window: the scratch row it has just stored, read back, times the reciprocal of the row count. -/
theorem out2_C_2_eq (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc0 : ¬cond2_0 i) (hc1 : cond2_1 i) (x0 : Vec F S10000x128 .f32) (x1 xs0 : Vec F S1x128 .f32) :
    out2_C_2 c i a1 h1 a2 h2 a3 h3 a4 h4 hc0 hc1 x0 x1 xs0 = k2_pay3 (k2_pay2 x1 x0 xs0) := by
  unfold out2_C_2
  rw [View.read_writes_eq_canon _ _ _ (cover2_C_2 c i a1 h1 a2 h2 a3 h3 a4 h4 hc0 hc1 x0 x1 xs0)]
  unfold kernelRun2_C
  dsimp only
  sl_unfold_words
  rw [View.canon_unit_zero (S := S1x128) zoff2, View.readCov_unit_zero (S := S1x128) _ zoff2]
  simp only [View.readAt_eq_ld, h1.read_unread, h2.read_unread, h4.read_unread, View.ld_unit_zero (S := S1x128) zoff2, View.ld_unit_zero (S := S10000x128) zoff2]

variable (V : (c : Dev nD) → (b : Ref sig .tc) → Buf (Elt F) ((c : Thread nD τ).loc b))

/-- After the first point the scratch row is the zero row plus the first block's column sums. -/
theorem scratch_first (c : Dev nD) (h : 0 < cfg2.N) :
    (outsAt2 V c 0 h).2 = k2_pay2 (iblk2 V c 1 ⟨0, h⟩) (iblk2 V c 0 ⟨0, h⟩) (k2_pay1 (F := F)) := by
  rw [outsAt2_A V c ⟨0, h⟩ (Nat.zero_mod _) (by dsimp only; omega)]
  dsimp only
  rw [sout2_A_0_eq]

/-- After every later point it is what the point before left plus that point's block's column sums. -/
theorem scratch_next (c : Dev nD) (n : ℕ) (h : n + 1 < cfg2.N) :
    (outsAt2 V c (n + 1) h).2 = k2_pay2 (iblk2 V c 1 ⟨n + 1, h⟩) (iblk2 V c 0 ⟨n + 1, h⟩) (outsAt2 V c n (Nat.lt_of_succ_lt h)).2 := by
  have hN : n + 1 < 10 := lt_of_lt_of_eq h (show cfg2.N = 10 from N_2)
  have h0 : ¬(⟨n + 1, h⟩ : Fin cfg2.N).val % 10 = 0 := by dsimp only; omega
  by_cases h1 : (⟨n + 1, h⟩ : Fin cfg2.N).val % 10 = 9
  · rw [outsAt2_C V c ⟨n + 1, h⟩ h0 h1]
    dsimp only
    rw [sout2_C_0_eq]
    rfl
  · rw [outsAt2_B V c ⟨n + 1, h⟩ h0 h1]
    dsimp only
    rw [sout2_B_0_eq]
    rfl

/-- After the last point the output window holds the scratch row scaled. -/
theorem out_last (c : Dev nD) (h : 9 < cfg2.N) : (outsAt2 V c 9 h).1 = k2_pay3 (outsAt2 V c 9 h).2 := by
  have h0 : ¬(⟨9, h⟩ : Fin cfg2.N).val % 10 = 0 := by dsimp only; omega
  have h1 : (⟨9, h⟩ : Fin cfg2.N).val % 10 = 9 := rfl
  rw [outsAt2_C V c ⟨9, h⟩ h0 h1]
  dsimp only
  rw [out2_C_2_eq, sout2_C_0_eq]

end Cert.KernelIdeal.Hand

end
-- ==== Proof.KI.Val2.lean ====
/-
  Region 2's output array.  The 1×128 result is written back once, after the last of the ten points, and that
  block is the whole array; so the array ends holding whatever the output's staging buffer holds after point 9.
  Also: each input block read at an index — rows 10000·t … of the aggregated activations, and the bias row.
-/
import proofs.«104939_j59184649339354_1_alg».proof.Proof.KI.Reg2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F] [Named F]

variable (V : (c : Dev nD) → (b : Ref sig .tc) → Buf (Elt F) ((c : Thread nD τ).loc b))

theorem hz2 : (![0, 0] : Fin 2 → Nat) = fun _ => 0 := funext fun a => by fin_cases a <;> rfl

/-- The printed index maps, decided over the grid: the row-block window sits at block t, the others at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Row p of the activations' block at point t is row 10000·t + p of the array. -/
theorem iblk2_0_apply (c : Dev nD) (t : Fin cfg2.N) (p : Fin 10000) (k : Fin 128) (n : Fin 100000) (hn : n.val = 10000 * t.val + p.val) :
    (iblk2 V c 0 t : Vec F S10000x128 .f32) (ix2 p k) = (V c main_v60 : S100000x128.Idx → Elt F .f32) (ix2 n k) := by
  obtain ⟨e0, e1, -⟩ := idx2 t
  unfold iblk2
  rw [View.read_apply]
  show V c main_v60 _ = V c main_v60 _
  refine congrArg _ ?_
  funext a; apply Fin.ext
  match a with
  | ⟨0, _⟩ => show win2_0.index t (0 : Fin 2) * 10000 + 1 * p.val = n.val; rw [e0, hn]; omega
  | ⟨1, _⟩ => show win2_0.index t (1 : Fin 2) * 128 + 1 * k.val = k.val; rw [e1]; omega

/-- The bias row's block at any point is the whole row. -/
theorem iblk2_1_apply (c : Dev nD) (t : Fin cfg2.N) (z : Fin 1) (k : Fin 128) :
    (iblk2 V c 1 t : Vec F S1x128 .f32) (ix2 z k) = (V c main_v61 : S1x128.Idx → Elt F .f32) (ix2 z k) := by
  obtain ⟨-, -, e2, e3, -⟩ := idx2 t
  unfold iblk2
  rw [View.read_apply]
  show V c main_v61 _ = V c main_v61 _
  refine congrArg _ ?_
  funext a; apply Fin.ext
  match a with
  | ⟨0, _⟩ => show win2_1.index t (0 : Fin 2) * 1 + 1 * z.val = z.val; rw [e2]; omega
  | ⟨1, _⟩ => show win2_1.index t (1 : Fin 2) * 128 + 1 * k.val = k.val; rw [e3]; omega

/-- An index of the result is in point t's block iff each coordinate is in the block's range on its axis. -/
theorem mem_blk2 (t : Fin cfg2.N) (i : S1x128.Idx) :
    i ∈ ((cfg2.win 2).blk t).view.set ↔ ∀ a : Fin 2, win2_2.index t a * S1x128.size a ≤ (i a).val ∧ (i a).val < win2_2.index t a * S1x128.size a + S1x128.size a := by
  show i ∈ ((View.whole main_v62).slice (win2_2.rect t)).set ↔ _
  rw [View.set_slice_whole, Rect.mem_set_unit]
  exact Iff.rfl

/-- THE RESULT ARRAY after the region is what the output's staging buffer holds after the last point. -/
theorem final2_of (c : Dev nD) (G : S1x128.Idx → Elt F .f32) (h9 : 9 < cfg2.N)
    (hG : ∀ q : Fin 128, (outsAt2 V c 9 h9).1 (ix2 (0 : Fin 1) q) = G (ix2 (0 : Fin 1) q)) :
    (dat2 V c).arrAt 2 cfg2.N = G := by
  have hN : cfg2.N = 10 := N_2
  obtain ⟨-, -, -, -, e4, e5⟩ := idx2 ⟨9, h9⟩
  refine (dat2 V c).arrAt_eq_of_cover 2 G (fun t hf => ?_) (fun i => ?_)
  · have ht : t.val = 9 := by have h := (flush2_2 t).mp hf; have := t.isLt; omega
    obtain rfl : t = ⟨9, h9⟩ := Fin.ext ht
    show (cfg2.win 2).cut (grid2.coords ⟨9, h9⟩) ((dat2 V c).after 2 ⟨9, h9⟩) = _
    rw [after2_2]
    funext (j : S1x128.Idx)
    obtain ⟨z, q, rfl⟩ : ∃ (z : Fin 1) (q : Fin 128), j = ix2 z q := ⟨j 0, j 1, eq_ix2 j⟩
    obtain rfl : z = 0 := Subsingleton.elim _ _
    show (outsAt2 V c 9 h9).1 (ix2 (0 : Fin 1) q) = G (((cfg2.win 2).blk ⟨9, h9⟩).view.emb (ix2 (0 : Fin 1) q))
    have he : ((cfg2.win 2).blk ⟨9, h9⟩).view.emb (ix2 (0 : Fin 1) q) = ix2 (0 : Fin 1) q := by
      funext a; apply Fin.ext
      match a with
      | ⟨0, _⟩ => show win2_2.index ⟨9, h9⟩ (0 : Fin 2) * 1 + 1 * 0 = 0; rw [e4]
      | ⟨1, _⟩ => show win2_2.index ⟨9, h9⟩ (1 : Fin 2) * 128 + 1 * q.val = q.val; rw [e5]; omega
    rw [he]
    exact hG q
  · have hi0 : (i 0).val < 1 := (i 0).isLt
    have hi1 : (i 1).val < 128 := (i 1).isLt
    refine ⟨⟨9, h9⟩, (flush2_2 _).mpr rfl, ?_⟩
    rw [mem_blk2]
    intro a
    match a with
    | ⟨0, _⟩ =>
      show win2_2.index ⟨9, h9⟩ (0 : Fin 2) * 1 ≤ (i 0).val ∧ (i 0).val < win2_2.index ⟨9, h9⟩ (0 : Fin 2) * 1 + 1
      rw [e4]; omega
    | ⟨1, _⟩ =>
      show win2_2.index ⟨9, h9⟩ (1 : Fin 2) * 128 ≤ (i 1).val ∧ (i 1).val < win2_2.index ⟨9, h9⟩ (1 : Fin 2) * 128 + 128
      rw [e5]; omega

end Cert.KernelIdeal.Hand

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.Val.Mean.lean ====
/-
  The mean of a column over 100000 rows, taken two ways.

  One program adds the column's entries ten blocks of 10000 rows at a time into a running total and multiplies the
  total by the reciprocal 1/100000; the other adds all 100000 entries and divides by 100000. On the extended reals the
  two agree for every column, finite or not: regrouping a finite sum needs only that addition is commutative and
  associative, and dividing by a nonzero real is multiplying by its reciprocal at the infinities too. A running total
  started from zero is the sum of the terms added so far.
-/
import proofs.«104939_j59184649339354_1_alg».proof.Proof.LibBlockedSum
import Idealize.ShloMosaic.PureOps.Ideal

noncomputable section
open scoped BigOperators

namespace Cert.Bridge.Mean

open Idealize.ShloMosaic

/-- Row `r` of block `t` is row `t * 10000 + r` of the whole. -/
theorem row_lt (t : Fin 10) (r : Fin 10000) : t.val * 10000 + r.val < 100000 := by
  have := t.isLt; have := r.isLt; omega

/-- The sum over 100000 rows is the sum of its ten consecutive blocks of 10000 rows. -/
theorem sum_blocks (f : Fin 100000 → EReal) :
    ∑ t : Fin 10, ∑ r : Fin 10000, f ⟨t.val * 10000 + r.val, row_lt t r⟩ = ∑ n : Fin 100000, f n :=
  (BlockedSum.sum_eq_sum_blocks 10 10000 f).symm

/-- The block sums scaled by 1/100000 are the whole sum divided by 100000. -/
theorem mean_join (f : Fin 100000 → EReal) :
    (∑ t : Fin 10, ∑ r : Fin 10000, f ⟨t.val * 10000 + r.val, row_lt t r⟩) * ((1 / 100000 : ℝ) : EReal)
      = Ideal.div (∑ n : Fin 100000, f n) ((100000 : ℝ) : EReal) := by
  rw [Ideal.div_coe (by norm_num : (100000 : ℝ) ≠ 0), sum_blocks]

/-- A running total that starts at `0 + g 0` and adds `g (n + 1)` at step `n + 1` is the sum of the terms so far. -/
theorem fold_eq_sum (acc g : ℕ → EReal) (h0 : acc 0 = 0 + g 0) (hs : ∀ n, acc (n + 1) = acc n + g (n + 1)) (n : ℕ) :
    acc n = ∑ t ∈ Finset.range (n + 1), g t := by
  induction n with
  | zero => rw [h0, zero_add, Finset.sum_range_one]
  | succ k ih => rw [hs, ih, Finset.sum_range_succ g (k + 1)]

/-- The same join with the blocks counted by a natural number below ten, the form a running total unrolls to:
    `g t` is block `t`'s sum. -/
theorem mean_join_range (f : Fin 100000 → EReal) (g : ℕ → EReal)
    (hg : ∀ t : Fin 10, g t.val = ∑ r : Fin 10000, f ⟨t.val * 10000 + r.val, row_lt t r⟩) :
    (∑ t ∈ Finset.range 10, g t) * ((1 / 100000 : ℝ) : EReal)
      = Ideal.div (∑ n : Fin 100000, f n) ((100000 : ℝ) : EReal) := by
  rw [← mean_join f, Finset.sum_range]
  exact congrArg (· * _) (Finset.sum_congr rfl fun t _ => hg t)

end Cert.Bridge.Mean

end
-- ==== Proof.Bridge.Mean2.lean ====
/- Region 2 on the extended reals: after the last grid point the output window holds, in each of its 128 columns, the
   column's mean over all 100000 rows of (activations + bias row). The scratch row after point n is the running total
   0 + g 0 + … + g n of the blocks' column sums g t = Σ_r (block t's row r + bias), by induction on the point; the
   running total is the sum over the points; the blocks are consecutive runs of 10000 rows of the array, so the ten
   block sums join into the sum over all rows; and the final scaling by 1/100000 is the division by 100000. -/
import proofs.«104939_j59184649339354_1_alg».proof.Proof.KI.Reg2Val
import proofs.«104939_j59184649339354_1_alg».proof.Proof.KI.Val2
import proofs.«104939_j59184649339354_1_alg».proof.Proof.Val.Pay
import proofs.«104939_j59184649339354_1_alg».proof.Proof.Val.Mean

set_option maxRecDepth 16384

noncomputable section
open scoped BigOperators

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The region's two input arrays as the region finds them, read as extended reals: the aggregated activations
    (100000 rows) and the bias row. -/
abbrev agg2 (c : Dev nD) : S100000x128.Idx → EReal := V c main_v60
abbrev bias2 (c : Dev nD) : S1x128.Idx → EReal := V c main_v61

/-- Column `q`'s sum over the rows of a block of (entry + bias entry). -/
def colSum2 (a : Vec Ideal S10000x128 .f32) (b : Vec Ideal S1x128 .f32) (q : Fin 128) : EReal :=
  ∑ r : Fin 10000, (a (ix2 r q) + b (ix2 (0 : Fin 1) q))

/-- One step of the running total, with the block's column sum named. -/
theorem pay2_step_col (b : Vec Ideal S1x128 .f32) (a : Vec Ideal S10000x128 .f32) (acc : Vec Ideal S1x128 .f32) (q : Fin 128) :
    k2_pay2 (F := Ideal) b a acc (ix2 (0 : Fin 1) q) = acc (ix2 (0 : Fin 1) q) + colSum2 a b q :=
  Cert.Bridge.Pay.pay2_step b a acc q

/-- Block `t`'s contribution to column `q`; zero past the grid. -/
def blockSum2 (c : Dev nD) (q : Fin 128) (t : ℕ) : EReal :=
  if h : t < cfg2.N then colSum2 (iblk2 V c 0 ⟨t, h⟩) (iblk2 V c 1 ⟨t, h⟩) q else 0

/-- The running total of the contributions, started from zero. -/
def total2 (c : Dev nD) (q : Fin 128) : ℕ → EReal
  | 0 => 0 + blockSum2 V c q 0
  | n + 1 => total2 c q n + blockSum2 V c q (n + 1)

/-- The scratch row after point `n`, at column `q`, is the running total: by induction on the point. -/
theorem scratch_eq_total2 (c : Dev nD) (q : Fin 128) :
    ∀ (n : ℕ) (h : n < cfg2.N), (outsAt2 V c n h).2 (ix2 (0 : Fin 1) q) = total2 V c q n
  | 0, h => by
    rw [scratch_first V c h, pay2_step_col, Cert.Bridge.Pay.pay2_zero]
    show _ = 0 + blockSum2 V c q 0
    unfold blockSum2; rw [dif_pos h]
  | n + 1, h => by
    rw [scratch_next V c n h, pay2_step_col, scratch_eq_total2 c q n (Nat.lt_of_succ_lt h)]
    show _ = total2 V c q n + blockSum2 V c q (n + 1)
    unfold blockSum2; rw [dif_pos h]

/-- A block's contribution is the sum over its 10000 rows of the array's entries plus the bias entry. -/
theorem blockSum2_rows (c : Dev nD) (q : Fin 128) (t : Fin 10) :
    blockSum2 V c q t.val = ∑ r : Fin 10000,
      (fun n : Fin 100000 => agg2 V c (ix2 n q) + bias2 V c (ix2 (0 : Fin 1) q))
        ⟨t.val * 10000 + r.val, Cert.Bridge.Mean.row_lt t r⟩ := by
  have ht : t.val < cfg2.N := lt_of_lt_of_eq t.isLt (show (10 : ℕ) = cfg2.N from N_2.symm)
  unfold blockSum2; rw [dif_pos ht]
  unfold colSum2
  refine Finset.sum_congr rfl fun r _ => ?_
  exact congrArg₂ (fun x y : EReal => x + y)
    (iblk2_0_apply V c ⟨t.val, ht⟩ r q ⟨t.val * 10000 + r.val, Cert.Bridge.Mean.row_lt t r⟩
      (by show t.val * 10000 + r.val = 10000 * t.val + r.val; omega))
    (iblk2_1_apply V c ⟨t.val, ht⟩ (0 : Fin 1) q)

/-- REGION 2'S VALUE: after the last point the output window holds each column's mean over the 100000 rows. -/
theorem region2_value (c : Dev nD) (h9 : 9 < cfg2.N) (q : Fin 128) :
    (outsAt2 V c 9 h9).1 (ix2 (0 : Fin 1) q)
      = Ideal.div (∑ n : Fin 100000, (agg2 V c (ix2 n q) + bias2 V c (ix2 (0 : Fin 1) q))) ((100000 : ℝ) : EReal) := by
  rw [out_last V c h9, Cert.Bridge.Pay.pay2_out, scratch_eq_total2 V c q 9 h9,
    Cert.Bridge.Mean.fold_eq_sum (total2 V c q) (blockSum2 V c q) rfl (fun _ => rfl) 9]
  exact Cert.Bridge.Mean.mean_join_range _ (blockSum2 V c q) (blockSum2_rows V c q)

end Cert.KernelIdeal.Hand

end
-- ==== Proof.Bridge.BiasRow.lean ====
/-
  The two bias rows the host lays out for the kernels.

  Each bias is a vector of 128 entries; before the region that uses it, the host recasts it as a one-row [1, 128]
  matrix, and that is the last operation of its stretch of host operations (no earlier operation of the stretch writes
  the vector's own buffer or the row's). So after the stretch the row's buffer holds the vector recast, and its entry at
  column `k` of its one row is the vector's entry `k`.
-/
import proofs.«104939_j59184649339354_1_alg».proof.Proof.Gen.KernelIdeal.Launch
import Idealize.ShloMosaic.Lib.StableHlo.Run
import Idealize.ShloMosaic.Lib.ValueIdx
import Idealize.ShloMosaic.Lib.ValueLayout

noncomputable section

namespace Cert.Bridge.BiasRow

open Cert.KernelIdeal Cert.KernelIdeal.Gen Idealize.ShloMosaic Idealize.ShloMosaic.TcCoe Idealize.ShloMosaic.StableHlo
  Idealize.ShloMosaic.ValueIdx

variable (X : Valuation τ sig (Elt Ideal))

/-- After the second region's host stretch, the first bias's row buffer holds the bias vector recast to [1, 128]. -/
theorem v46_eq : StableHlo.after (hostOps1 (F := Ideal)) X (Proc.devRef .tc main_v46)
    = shapeCast S1x128 (X (Proc.devRef .tc main_arg4)) shapeCasts_S128_S1x128 := by
  after_results
  rfl

/-- Its entry at column `k` is the bias vector's entry `k`. -/
theorem row46 (k : Fin 128) :
    StableHlo.after (hostOps1 (F := Ideal)) X (Proc.devRef .tc main_v46) (ix2 (0 : Fin 1) k)
      = X (Proc.devRef .tc main_arg4) (ix1 k) := by
  rw [v46_eq]
  exact shapeCast_a_1a_apply _ shapeCasts_S128_S1x128 (0 : Fin 1) k

/-- After the third region's host stretch, the second bias's row buffer holds the bias vector recast to [1, 128]. -/
theorem v61_eq : StableHlo.after (hostOps2 (F := Ideal)) X (Proc.devRef .tc main_v61)
    = shapeCast S1x128 (X (Proc.devRef .tc main_arg6)) shapeCasts_S128_S1x128 := by
  after_results
  rfl

/-- Its entry at column `k` is the bias vector's entry `k`. -/
theorem row61 (k : Fin 128) :
    StableHlo.after (hostOps2 (F := Ideal)) X (Proc.devRef .tc main_v61) (ix2 (0 : Fin 1) k)
      = X (Proc.devRef .tc main_arg6) (ix1 k) := by
  rw [v61_eq]
  exact shapeCast_a_1a_apply _ shapeCasts_S128_S1x128 (0 : Fin 1) k

end Cert.Bridge.BiasRow

end
-- ==== Proof.Bridge.Final.lean ====
/-
  The kernel program's two results are the reference's.  Walking @main's nine segment boundaries: after the
  three opening host stretches the edge lists and the per-edge normalisation are the reference's stages of the
  edge index and weight arguments; region 0 leaves the reference's product x·W1; the next stretch its first
  aggregation; region 1 the reference's max(agg0 + b1, 0)·W2 (the bias row the region stages is the bias vector
  laid out as a row); the next stretch the second aggregation; region 2 the reference's mean over the rows of
  agg1 + b2 (ten block sums accumulated and scaled by the named 1/100000 against one sum over 100000 rows
  divided by 100000: regrouping a finite sum and x·(1/c) = x/c for a nonzero real c hold for all extended
  reals, so no finiteness of the inputs is used); the last stretch the two linear heads.  A buffer a segment does
  not write keeps its contents.
-/
import proofs.«104939_j59184649339354_1_alg».proof.Proof.KI.Run
import proofs.«104939_j59184649339354_1_alg».proof.Proof.Bridge.Layer
import proofs.«104939_j59184649339354_1_alg».proof.Proof.Bridge.Host
import proofs.«104939_j59184649339354_1_alg».proof.Proof.Bridge.Mean2
import proofs.«104939_j59184649339354_1_alg».proof.Proof.Bridge.BiasRow
import proofs.«104939_j59184649339354_1_alg».proof.Proof.Val.Ref

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Read (val_main_v5 val_main_v6 val_main_v8 val_main_v13 val_main_v14 val_main_cst_2 val_main_v15 val_main_v31
  val_main_v32 val_main_v45 val_main_v78 val_main_v91 val_main_v98 val_main_v101 val_main_v104)

variable (m : (ℓ : Loc nD τ sig) → Buf (Elt Ideal) ℓ) (ρ : Dev nD → PrngReg)

/-- The launch contents of the argument arrays. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)

/-! ## Buffers a segment does not write keep their contents -/

theorem k3_arg0 (c : Dev nD) : W3 m ρ c (Proc.devRef .tc main_arg0) = W0 m ρ c (Proc.devRef .tc main_arg0) :=
  (StableHlo.after_of_writes_sub hostOps0_2 _ hostOps0_2_writes (by decide) : W3 m ρ c (Proc.devRef .tc main_arg0) = W2 m ρ c (Proc.devRef .tc main_arg0)).trans <|
    (StableHlo.after_of_writes_sub hostOps0_1 _ hostOps0_1_writes (by decide) : W2 m ρ c (Proc.devRef .tc main_arg0) = W1 m ρ c (Proc.devRef .tc main_arg0)).trans <|
    (StableHlo.after_of_writes_sub hostOps0 _ hostOps0_writes (by decide) : W1 m ρ c (Proc.devRef .tc main_arg0) = W0 m ρ c (Proc.devRef .tc main_arg0))

theorem k3_arg3 (c : Dev nD) : W3 m ρ c (Proc.devRef .tc main_arg3) = W0 m ρ c (Proc.devRef .tc main_arg3) :=
  (StableHlo.after_of_writes_sub hostOps0_2 _ hostOps0_2_writes (by decide) : W3 m ρ c (Proc.devRef .tc main_arg3) = W2 m ρ c (Proc.devRef .tc main_arg3)).trans <|
    (StableHlo.after_of_writes_sub hostOps0_1 _ hostOps0_1_writes (by decide) : W2 m ρ c (Proc.devRef .tc main_arg3) = W1 m ρ c (Proc.devRef .tc main_arg3)).trans <|
    (StableHlo.after_of_writes_sub hostOps0 _ hostOps0_writes (by decide) : W1 m ρ c (Proc.devRef .tc main_arg3) = W0 m ρ c (Proc.devRef .tc main_arg3))

theorem k4_arg4 (c : Dev nD) : W4 m ρ c (Proc.devRef .tc main_arg4) = W0 m ρ c (Proc.devRef .tc main_arg4) :=
  (W4_of_ne m ρ c main_arg4 (by decide)).trans <|
    (StableHlo.after_of_writes_sub hostOps0_2 _ hostOps0_2_writes (by decide) : W3 m ρ c (Proc.devRef .tc main_arg4) = W2 m ρ c (Proc.devRef .tc main_arg4)).trans <|
    (StableHlo.after_of_writes_sub hostOps0_1 _ hostOps0_1_writes (by decide) : W2 m ρ c (Proc.devRef .tc main_arg4) = W1 m ρ c (Proc.devRef .tc main_arg4)).trans <|
    (StableHlo.after_of_writes_sub hostOps0 _ hostOps0_writes (by decide) : W1 m ρ c (Proc.devRef .tc main_arg4) = W0 m ρ c (Proc.devRef .tc main_arg4))

theorem k5_arg5 (c : Dev nD) : W5 m ρ c (Proc.devRef .tc main_arg5) = W0 m ρ c (Proc.devRef .tc main_arg5) :=
  (StableHlo.after_of_writes_sub hostOps1 _ hostOps1_writes (by decide) : W5 m ρ c (Proc.devRef .tc main_arg5) = W4 m ρ c (Proc.devRef .tc main_arg5)).trans <|
    (W4_of_ne m ρ c main_arg5 (by decide)).trans <|
    (StableHlo.after_of_writes_sub hostOps0_2 _ hostOps0_2_writes (by decide) : W3 m ρ c (Proc.devRef .tc main_arg5) = W2 m ρ c (Proc.devRef .tc main_arg5)).trans <|
    (StableHlo.after_of_writes_sub hostOps0_1 _ hostOps0_1_writes (by decide) : W2 m ρ c (Proc.devRef .tc main_arg5) = W1 m ρ c (Proc.devRef .tc main_arg5)).trans <|
    (StableHlo.after_of_writes_sub hostOps0 _ hostOps0_writes (by decide) : W1 m ρ c (Proc.devRef .tc main_arg5) = W0 m ρ c (Proc.devRef .tc main_arg5))

theorem k6_arg6 (c : Dev nD) : W6 m ρ c (Proc.devRef .tc main_arg6) = W0 m ρ c (Proc.devRef .tc main_arg6) :=
  (W6_of_ne m ρ c main_arg6 (by decide)).trans <|
    (StableHlo.after_of_writes_sub hostOps1 _ hostOps1_writes (by decide) : W5 m ρ c (Proc.devRef .tc main_arg6) = W4 m ρ c (Proc.devRef .tc main_arg6)).trans <|
    (W4_of_ne m ρ c main_arg6 (by decide)).trans <|
    (StableHlo.after_of_writes_sub hostOps0_2 _ hostOps0_2_writes (by decide) : W3 m ρ c (Proc.devRef .tc main_arg6) = W2 m ρ c (Proc.devRef .tc main_arg6)).trans <|
    (StableHlo.after_of_writes_sub hostOps0_1 _ hostOps0_1_writes (by decide) : W2 m ρ c (Proc.devRef .tc main_arg6) = W1 m ρ c (Proc.devRef .tc main_arg6)).trans <|
    (StableHlo.after_of_writes_sub hostOps0 _ hostOps0_writes (by decide) : W1 m ρ c (Proc.devRef .tc main_arg6) = W0 m ρ c (Proc.devRef .tc main_arg6))

theorem k8_arg7 (c : Dev nD) : W8 m ρ c (Proc.devRef .tc main_arg7) = W0 m ρ c (Proc.devRef .tc main_arg7) :=
  (W8_of_ne m ρ c main_arg7 (by decide)).trans <|
    (StableHlo.after_of_writes_sub hostOps2 _ hostOps2_writes (by decide) : W7 m ρ c (Proc.devRef .tc main_arg7) = W6 m ρ c (Proc.devRef .tc main_arg7)).trans <|
    (W6_of_ne m ρ c main_arg7 (by decide)).trans <|
    (StableHlo.after_of_writes_sub hostOps1 _ hostOps1_writes (by decide) : W5 m ρ c (Proc.devRef .tc main_arg7) = W4 m ρ c (Proc.devRef .tc main_arg7)).trans <|
    (W4_of_ne m ρ c main_arg7 (by decide)).trans <|
    (StableHlo.after_of_writes_sub hostOps0_2 _ hostOps0_2_writes (by decide) : W3 m ρ c (Proc.devRef .tc main_arg7) = W2 m ρ c (Proc.devRef .tc main_arg7)).trans <|
    (StableHlo.after_of_writes_sub hostOps0_1 _ hostOps0_1_writes (by decide) : W2 m ρ c (Proc.devRef .tc main_arg7) = W1 m ρ c (Proc.devRef .tc main_arg7)).trans <|
    (StableHlo.after_of_writes_sub hostOps0 _ hostOps0_writes (by decide) : W1 m ρ c (Proc.devRef .tc main_arg7) = W0 m ρ c (Proc.devRef .tc main_arg7))

theorem k8_arg8 (c : Dev nD) : W8 m ρ c (Proc.devRef .tc main_arg8) = W0 m ρ c (Proc.devRef .tc main_arg8) :=
  (W8_of_ne m ρ c main_arg8 (by decide)).trans <|
    (StableHlo.after_of_writes_sub hostOps2 _ hostOps2_writes (by decide) : W7 m ρ c (Proc.devRef .tc main_arg8) = W6 m ρ c (Proc.devRef .tc main_arg8)).trans <|
    (W6_of_ne m ρ c main_arg8 (by decide)).trans <|
    (StableHlo.after_of_writes_sub hostOps1 _ hostOps1_writes (by decide) : W5 m ρ c (Proc.devRef .tc main_arg8) = W4 m ρ c (Proc.devRef .tc main_arg8)).trans <|
    (W4_of_ne m ρ c main_arg8 (by decide)).trans <|
    (StableHlo.after_of_writes_sub hostOps0_2 _ hostOps0_2_writes (by decide) : W3 m ρ c (Proc.devRef .tc main_arg8) = W2 m ρ c (Proc.devRef .tc main_arg8)).trans <|
    (StableHlo.after_of_writes_sub hostOps0_1 _ hostOps0_1_writes (by decide) : W2 m ρ c (Proc.devRef .tc main_arg8) = W1 m ρ c (Proc.devRef .tc main_arg8)).trans <|
    (StableHlo.after_of_writes_sub hostOps0 _ hostOps0_writes (by decide) : W1 m ρ c (Proc.devRef .tc main_arg8) = W0 m ρ c (Proc.devRef .tc main_arg8))

theorem k8_arg9 (c : Dev nD) : W8 m ρ c (Proc.devRef .tc main_arg9) = W0 m ρ c (Proc.devRef .tc main_arg9) :=
  (W8_of_ne m ρ c main_arg9 (by decide)).trans <|
    (StableHlo.after_of_writes_sub hostOps2 _ hostOps2_writes (by decide) : W7 m ρ c (Proc.devRef .tc main_arg9) = W6 m ρ c (Proc.devRef .tc main_arg9)).trans <|
    (W6_of_ne m ρ c main_arg9 (by decide)).trans <|
    (StableHlo.after_of_writes_sub hostOps1 _ hostOps1_writes (by decide) : W5 m ρ c (Proc.devRef .tc main_arg9) = W4 m ρ c (Proc.devRef .tc main_arg9)).trans <|
    (W4_of_ne m ρ c main_arg9 (by decide)).trans <|
    (StableHlo.after_of_writes_sub hostOps0_2 _ hostOps0_2_writes (by decide) : W3 m ρ c (Proc.devRef .tc main_arg9) = W2 m ρ c (Proc.devRef .tc main_arg9)).trans <|
    (StableHlo.after_of_writes_sub hostOps0_1 _ hostOps0_1_writes (by decide) : W2 m ρ c (Proc.devRef .tc main_arg9) = W1 m ρ c (Proc.devRef .tc main_arg9)).trans <|
    (StableHlo.after_of_writes_sub hostOps0 _ hostOps0_writes (by decide) : W1 m ρ c (Proc.devRef .tc main_arg9) = W0 m ρ c (Proc.devRef .tc main_arg9))

theorem k8_arg10 (c : Dev nD) : W8 m ρ c (Proc.devRef .tc main_arg10) = W0 m ρ c (Proc.devRef .tc main_arg10) :=
  (W8_of_ne m ρ c main_arg10 (by decide)).trans <|
    (StableHlo.after_of_writes_sub hostOps2 _ hostOps2_writes (by decide) : W7 m ρ c (Proc.devRef .tc main_arg10) = W6 m ρ c (Proc.devRef .tc main_arg10)).trans <|
    (W6_of_ne m ρ c main_arg10 (by decide)).trans <|
    (StableHlo.after_of_writes_sub hostOps1 _ hostOps1_writes (by decide) : W5 m ρ c (Proc.devRef .tc main_arg10) = W4 m ρ c (Proc.devRef .tc main_arg10)).trans <|
    (W4_of_ne m ρ c main_arg10 (by decide)).trans <|
    (StableHlo.after_of_writes_sub hostOps0_2 _ hostOps0_2_writes (by decide) : W3 m ρ c (Proc.devRef .tc main_arg10) = W2 m ρ c (Proc.devRef .tc main_arg10)).trans <|
    (StableHlo.after_of_writes_sub hostOps0_1 _ hostOps0_1_writes (by decide) : W2 m ρ c (Proc.devRef .tc main_arg10) = W1 m ρ c (Proc.devRef .tc main_arg10)).trans <|
    (StableHlo.after_of_writes_sub hostOps0 _ hostOps0_writes (by decide) : W1 m ρ c (Proc.devRef .tc main_arg10) = W0 m ρ c (Proc.devRef .tc main_arg10))

theorem k2_v5 (c : Dev nD) : W2 m ρ c (Proc.devRef .tc main_v5) = W1 m ρ c (Proc.devRef .tc main_v5) :=
  (StableHlo.after_of_writes_sub hostOps0_1 _ hostOps0_1_writes (by decide) : W2 m ρ c (Proc.devRef .tc main_v5) = W1 m ρ c (Proc.devRef .tc main_v5))

theorem k2_v6 (c : Dev nD) : W2 m ρ c (Proc.devRef .tc main_v6) = W1 m ρ c (Proc.devRef .tc main_v6) :=
  (StableHlo.after_of_writes_sub hostOps0_1 _ hostOps0_1_writes (by decide) : W2 m ρ c (Proc.devRef .tc main_v6) = W1 m ρ c (Proc.devRef .tc main_v6))

theorem k2_v8 (c : Dev nD) : W2 m ρ c (Proc.devRef .tc main_v8) = W1 m ρ c (Proc.devRef .tc main_v8) :=
  (StableHlo.after_of_writes_sub hostOps0_1 _ hostOps0_1_writes (by decide) : W2 m ρ c (Proc.devRef .tc main_v8) = W1 m ρ c (Proc.devRef .tc main_v8))

theorem k6_v5 (c : Dev nD) : W6 m ρ c (Proc.devRef .tc main_v5) = W2 m ρ c (Proc.devRef .tc main_v5) :=
  (W6_of_ne m ρ c main_v5 (by decide)).trans <|
    (StableHlo.after_of_writes_sub hostOps1 _ hostOps1_writes (by decide) : W5 m ρ c (Proc.devRef .tc main_v5) = W4 m ρ c (Proc.devRef .tc main_v5)).trans <|
    (W4_of_ne m ρ c main_v5 (by decide)).trans <|
    (StableHlo.after_of_writes_sub hostOps0_2 _ hostOps0_2_writes (by decide) : W3 m ρ c (Proc.devRef .tc main_v5) = W2 m ρ c (Proc.devRef .tc main_v5))

theorem k6_v6 (c : Dev nD) : W6 m ρ c (Proc.devRef .tc main_v6) = W2 m ρ c (Proc.devRef .tc main_v6) :=
  (W6_of_ne m ρ c main_v6 (by decide)).trans <|
    (StableHlo.after_of_writes_sub hostOps1 _ hostOps1_writes (by decide) : W5 m ρ c (Proc.devRef .tc main_v6) = W4 m ρ c (Proc.devRef .tc main_v6)).trans <|
    (W4_of_ne m ρ c main_v6 (by decide)).trans <|
    (StableHlo.after_of_writes_sub hostOps0_2 _ hostOps0_2_writes (by decide) : W3 m ρ c (Proc.devRef .tc main_v6) = W2 m ρ c (Proc.devRef .tc main_v6))

theorem k6_v31 (c : Dev nD) : W6 m ρ c (Proc.devRef .tc main_v31) = W3 m ρ c (Proc.devRef .tc main_v31) :=
  (W6_of_ne m ρ c main_v31 (by decide)).trans <|
    (StableHlo.after_of_writes_sub hostOps1 _ hostOps1_writes (by decide) : W5 m ρ c (Proc.devRef .tc main_v31) = W4 m ρ c (Proc.devRef .tc main_v31)).trans <|
    (W4_of_ne m ρ c main_v31 (by decide))

theorem k4_v5 (c : Dev nD) : W4 m ρ c (Proc.devRef .tc main_v5) = W2 m ρ c (Proc.devRef .tc main_v5) :=
  (W4_of_ne m ρ c main_v5 (by decide)).trans <|
    (StableHlo.after_of_writes_sub hostOps0_2 _ hostOps0_2_writes (by decide) : W3 m ρ c (Proc.devRef .tc main_v5) = W2 m ρ c (Proc.devRef .tc main_v5))

theorem k4_v6 (c : Dev nD) : W4 m ρ c (Proc.devRef .tc main_v6) = W2 m ρ c (Proc.devRef .tc main_v6) :=
  (W4_of_ne m ρ c main_v6 (by decide)).trans <|
    (StableHlo.after_of_writes_sub hostOps0_2 _ hostOps0_2_writes (by decide) : W3 m ρ c (Proc.devRef .tc main_v6) = W2 m ρ c (Proc.devRef .tc main_v6))

theorem k4_v31 (c : Dev nD) : W4 m ρ c (Proc.devRef .tc main_v31) = W3 m ρ c (Proc.devRef .tc main_v31) :=
  (W4_of_ne m ρ c main_v31 (by decide))

/-! ## The boundaries, in order -/

theorem w2_v5 (c : Dev nD) : W2 m ρ c (Proc.devRef .tc main_v5) = val_main_v5 (F := Ideal) (a1 m c) :=
  (k2_v5 m ρ c).trans (Cert.Bridge.Host.s0_v5 (W0 m ρ c))
theorem w2_v6 (c : Dev nD) : W2 m ρ c (Proc.devRef .tc main_v6) = val_main_v6 (F := Ideal) (a1 m c) :=
  (k2_v6 m ρ c).trans (Cert.Bridge.Host.s0_v6 (W0 m ρ c))
theorem w2_v8 (c : Dev nD) : W2 m ρ c (Proc.devRef .tc main_v8) = val_main_v8 (F := Ideal) (a2 m c) :=
  (k2_v8 m ρ c).trans (Cert.Bridge.Host.s0_v8 (W0 m ρ c))
theorem w2_v15 (c : Dev nD) : W2 m ρ c (Proc.devRef .tc main_v15) = val_main_v15 (F := Ideal) (a1 m c) (a2 m c) :=
  Cert.Bridge.Host.s1_v15 (W1 m ρ c) (a1 m c) (a2 m c) (Cert.Bridge.Host.s0_v13 (W0 m ρ c)) (Cert.Bridge.Host.s0_v14 (W0 m ρ c))
    (Cert.Bridge.Host.s0_cst2 (W0 m ρ c))
theorem w3_v31 (c : Dev nD) : W3 m ρ c (Proc.devRef .tc main_v31) = val_main_v31 (F := Ideal) (a1 m c) (a2 m c) :=
  Cert.Bridge.Host.s2_v31 (W2 m ρ c) (a1 m c) (a2 m c) (w2_v5 m ρ c) (w2_v6 m ρ c) (w2_v8 m ρ c) (w2_v15 m ρ c)

theorem w4_v5 (c : Dev nD) : W4 m ρ c (Proc.devRef .tc main_v5) = val_main_v5 (F := Ideal) (a1 m c) := (k4_v5 m ρ c).trans (w2_v5 m ρ c)
theorem w4_v6 (c : Dev nD) : W4 m ρ c (Proc.devRef .tc main_v6) = val_main_v6 (F := Ideal) (a1 m c) := (k4_v6 m ρ c).trans (w2_v6 m ρ c)
theorem w4_v31 (c : Dev nD) : W4 m ρ c (Proc.devRef .tc main_v31) = val_main_v31 (F := Ideal) (a1 m c) (a2 m c) := (k4_v31 m ρ c).trans (w3_v31 m ρ c)
theorem w4_v32 (c : Dev nD) : W4 m ρ c (Proc.devRef .tc main_v32) = val_main_v32 (F := Ideal) (a0 m c) (a3 m c) := by
  rw [region0_value m ρ c, show V3 m ρ c main_arg0 = a0 m c from k3_arg0 m ρ c, show V3 m ρ c main_arg3 = a3 m c from k3_arg3 m ρ c]

theorem w5_v45 (c : Dev nD) : W5 m ρ c (Proc.devRef .tc main_v45) = val_main_v45 (F := Ideal) (a0 m c) (a1 m c) (a2 m c) (a3 m c) :=
  Cert.Bridge.Host.s3_v45 (W4 m ρ c) (a0 m c) (a1 m c) (a2 m c) (a3 m c) (w4_v5 m ρ c) (w4_v6 m ρ c) (w4_v31 m ρ c) (w4_v32 m ρ c)

theorem w6_v5 (c : Dev nD) : W6 m ρ c (Proc.devRef .tc main_v5) = val_main_v5 (F := Ideal) (a1 m c) := (k6_v5 m ρ c).trans (w2_v5 m ρ c)
theorem w6_v6 (c : Dev nD) : W6 m ρ c (Proc.devRef .tc main_v6) = val_main_v6 (F := Ideal) (a1 m c) := (k6_v6 m ρ c).trans (w2_v6 m ρ c)
theorem w6_v31 (c : Dev nD) : W6 m ρ c (Proc.devRef .tc main_v31) = val_main_v31 (F := Ideal) (a1 m c) (a2 m c) := (k6_v31 m ρ c).trans (w3_v31 m ρ c)
theorem w6_v47 (c : Dev nD) : W6 m ρ c (Proc.devRef .tc main_v47) = val_main_v78 (F := Ideal) (a0 m c) (a1 m c) (a2 m c) (a3 m c) (a4 m c) (a5 m c) :=
  region1_value m ρ c (a0 m c) (a1 m c) (a2 m c) (a3 m c) (a4 m c) (a5 m c) (w5_v45 m ρ c)
    (fun k => (Cert.Bridge.BiasRow.row46 (W4 m ρ c) k).trans (congrFun (k4_arg4 m ρ c) (ix1 k)))
    (k5_arg5 m ρ c)

theorem w7_v60 (c : Dev nD) : W7 m ρ c (Proc.devRef .tc main_v60) = val_main_v91 (F := Ideal) (a0 m c) (a1 m c) (a2 m c) (a3 m c) (a4 m c) (a5 m c) :=
  Cert.Bridge.Host.s4_v60 (W6 m ρ c) (a0 m c) (a1 m c) (a2 m c) (a3 m c) (a4 m c) (a5 m c) (w6_v5 m ρ c) (w6_v6 m ρ c) (w6_v31 m ρ c) (w6_v47 m ρ c)

theorem w8_v62 (c : Dev nD) : W8 m ρ c (Proc.devRef .tc main_v62) = val_main_v98 (F := Ideal) (a0 m c) (a1 m c) (a2 m c) (a3 m c) (a4 m c) (a5 m c) (a6 m c) := by
  have h9 : 9 < cfg2.N := by rw [show cfg2.N = 10 from N_2]; decide
  refine (W8_arr m ρ c 2).trans (final2_of (V7 m ρ) c _ h9 fun q => ?_)
  refine (region2_value (V7 m ρ) c h9 q).trans ?_
  refine Eq.trans ?_ (Cert.Bridge.Ref.ref_mean (a0 m c) (a1 m c) (a2 m c) (a3 m c) (a4 m c) (a5 m c) (a6 m c) q).symm
  have hs : (∑ n : Fin 100000, (agg2 (V7 m ρ) c (ix2 n q) + bias2 (V7 m ρ) c (ix2 (0 : Fin 1) q)))
      = ∑ n : Fin 100000, (val_main_v91 (F := Ideal) (a0 m c) (a1 m c) (a2 m c) (a3 m c) (a4 m c) (a5 m c) (ix2 n q) + (a6 m c) (ix1 q)) := by
    refine Finset.sum_congr rfl fun n _ => ?_
    have e1 : agg2 (V7 m ρ) c (ix2 n q) = val_main_v91 (F := Ideal) (a0 m c) (a1 m c) (a2 m c) (a3 m c) (a4 m c) (a5 m c) (ix2 n q) := congrFun (w7_v60 m ρ c) (ix2 n q)
    have e2 : bias2 (V7 m ρ) c (ix2 (0 : Fin 1) q) = (a6 m c) (ix1 q) :=
      (Cert.Bridge.BiasRow.row61 (W6 m ρ c) q).trans (congrFun (k6_arg6 m ρ c) (ix1 q))
    rw [e1, e2]
  rw [hs]

/-- THE FIRST RESULT: the mu head. -/
theorem result0 (c : Dev nD) : W9 m ρ c (Proc.devRef .tc main_v65) = val_main_v101 (F := Ideal) (a0 m c) (a1 m c) (a2 m c) (a3 m c) (a4 m c) (a5 m c) (a6 m c) (a7 m c) (a8 m c) :=
  Cert.Bridge.Host.s5_v65 (W8 m ρ c) (a0 m c) (a1 m c) (a2 m c) (a3 m c) (a4 m c) (a5 m c) (a6 m c) (a7 m c) (a8 m c) (w8_v62 m ρ c) (k8_arg7 m ρ c) (k8_arg8 m ρ c)
/-- THE SECOND RESULT: the log-variance head. -/
theorem result1 (c : Dev nD) : W9 m ρ c (Proc.devRef .tc main_v68) = val_main_v104 (F := Ideal) (a0 m c) (a1 m c) (a2 m c) (a3 m c) (a4 m c) (a5 m c) (a6 m c) (a9 m c) (a10 m c) :=
  Cert.Bridge.Host.s5_v68 (W8 m ρ c) (a0 m c) (a1 m c) (a2 m c) (a3 m c) (a4 m c) (a5 m c) (a6 m c) (a9 m c) (a10 m c) (w8_v62 m ρ c) (k8_arg9 m ρ c) (k8_arg10 m ρ c)

/-- The run, read: both results at the reference's stages of the launch arguments, every argument unchanged. -/
theorem run_values : θ_run defs (onTc (τ := τ) (main (F := Ideal))) ⟨m, fun _ => 0, ρ⟩ (fun r => ∀ c : Dev nD,
      r.2.mem ((c.tc : Thread nD τ).loc main_v65) = val_main_v101 (F := Ideal) (a0 m c) (a1 m c) (a2 m c) (a3 m c) (a4 m c) (a5 m c) (a6 m c) (a7 m c) (a8 m c)
      ∧ r.2.mem ((c.tc : Thread nD τ).loc main_v68) = val_main_v104 (F := Ideal) (a0 m c) (a1 m c) (a2 m c) (a3 m c) (a4 m c) (a5 m c) (a6 m c) (a9 m c) (a10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v65 (by decide))).trans (result0 m ρ c),
      (h c _ (mem_uc main_v68 (by decide))).trans (result1 m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩) (run_all m ρ)

end Cert.KernelIdeal.Hand

end
-- ==== Proof.lean ====
/- The proof of `Cert.Claim`: a graph-convolution encoder (two GCN layers, a global mean pool, two linear
   heads) whose dense steps are three row-blocked kernels, against the plain reference.

   The frames: the word-level and the idealized kernel programs run to the end, fault nowhere and leave their
   arguments unchanged — @main as nine segments (host stretches and three kernel regions), each region from its
   kernel's own run at every grid point (Proof/K/Run.lean, Proof/KI/Run.lean; the third region carries its
   accumulator between grid points); the reference's frame is its run with the results dropped.

   The idealization: the one rewrite is the named constant 1/100000, the mean's reciprocal.

   The values: at exact arithmetic both programs compute the same function of the arguments. The host
   operations are shared; a product accumulated row block by row block is the whole product; the mean is ten
   block sums scaled by 1/100000 against one sum divided by 100000 (Proof/Bridge/Final.lean). Neither step
   needs the inputs to be finite. -/
import proofs.«104939_j59184649339354_1_alg».proof.Defs
import proofs.«104939_j59184649339354_1_alg».proof.Proof.K.Run
import proofs.«104939_j59184649339354_1_alg».proof.Proof.KI.Run
import proofs.«104939_j59184649339354_1_alg».proof.Proof.Bridge.Final
import proofs.«104939_j59184649339354_1_alg».proof.Proof.Gen.Kernel
import proofs.«104939_j59184649339354_1_alg».proof.Proof.Gen.KernelIdeal
import proofs.«104939_j59184649339354_1_alg».proof.Proof.Gen.ReferenceIdeal
import proofs.«104939_j59184649339354_1_alg».proof.Proof.Gen.ReferenceIdeal.Run
import proofs.«104939_j59184649339354_1_alg».proof.Proof.Gen.ReferenceIdeal.Read
import proofs.«104939_j59184649339354_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ledger's one entry: the table gives "inv_100000" the value 1/100000, and the printed constant is that
    value at exact arithmetic. -/
theorem preserves : Cert.preserves_Kernel_KernelIdeal :=
  IdealRules.named_const.statement Cert.KernelIdeal.κ "inv_100000" .f32 0x3727C5AC#32 ((1 / 100000 : ℝ) : EReal) rfl

/-- Both programs end with the reference's two stages of the (agreeing) arguments. -/
theorem algebraic : Cert.algebraic_KernelIdeal_ReferenceIdeal := by
  intro m ρ m' ρ' _ hagree
  refine ⟨fun c => Cert.ReferenceIdeal.Read.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Hand.run_values m ρ, ?_⟩
  refine (θ_run Cert.ReferenceIdeal.defs _ _).mono (fun _ h c => ?_) (Cert.ReferenceIdeal.Value.run (F := Ideal) m' ρ')
  obtain ⟨h0, h1, hargs⟩ := h c
  obtain ⟨e0, e1, e2, e3, e4, e5, e6, e7, e8, e9, e10⟩ := hagree c
  refine ⟨?_, ?_, hargs⟩
  · rw [h0, Cert.ReferenceIdeal.Read.val_main_v101_eq, e0, e1, e2, e3, e4, e5, e6, e7, e8]
  · rw [h1, Cert.ReferenceIdeal.Read.val_main_v104_eq, e0, e1, e2, e3, e4, e5, e6, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
